-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S128 .f32) (main_arg16 : FVec F S128x32 .f32) (main_arg17 : FVec F S32 .f32) (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x32 .f32 := Host.absf main_arg16
  let main_cst_28 : FVec F S_ .f32 := constant S_ .f32 0x7F800000#32
  let main_v75 : FVec F S128x32 .f32 := broadcastInDim S128x32 ![] bcast_S_S128x32 main_cst_28
  let main_v76 : IVec S128x32 1 := cmpf .olt main_v74 main_v75
  let main_c_29 : IVec S_ 1 := constantI S_ 1 1#1
  let main_v77 : IVec S_ 1 := (fun x v => Host.reduce IntOp.andi x v reducesTo_S128x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128 .f32) (main_arg14 : FVec F S128x128 .f32) (main_arg15 : FVec F S128 .f32) (main_arg16 : FVec F S128x32 .f32) (main_arg17 : FVec F S32 .f32) (main_arg18 : FVec F S32x1 .f32) (main_arg19 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x32 .f32) (main_arg17 : FVec F S32 .f32) (main_arg18 : FVec F S32x1 .f32) (main_arg19 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x32 .f32) (main_arg17 : FVec F S32 .f32) (main_arg18 : FVec F S32x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x3 .f32) (main_arg1 : IVec S2x1600000 32) (main_arg2 : FVec F S3x64 .f32) (main_arg3 : FVec F S64 .f32) (main_arg4 : FVec F S64 .f32) (main_arg5 : FVec F S64 .f32) (main_arg6 : FVec F S64x128 .f32) (main_arg7 : FVec F S128 .f32) (main_arg8 : FVec F S128 .f32) (main_arg9 : FVec F S128 .f32) (main_arg10 : FVec F S128x128 .f32) (main_arg11 : FVec F S128 .f32) (main_arg12 : FVec F S128 .f32) (main_arg13 : FVec F S128 .f32) (main_arg14 : FVec F S128x128 .f32) (main_arg15 : FVec F S128 .f32) (main_arg16 : FVec F S128x32 .f32) (main_arg17 : FVec F S32 .f32) (main_arg18 : FVec F S32x1 .f32) (main_arg19 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x3 : Shape := ⟨2, ![4000, 3]⟩
abbrev S4000x64 : Shape := ⟨2, ![4000, 64]⟩
abbrev S1700000x64 : Shape := ⟨2, ![1700000, 64]⟩
abbrev S1x64 : Shape := ⟨2, ![1, 64]⟩
abbrev S100000x128 : Shape := ⟨2, ![100000, 128]⟩
abbrev S4000x128 : Shape := ⟨2, ![4000, 128]⟩
abbrev S4000 : Shape := ⟨1, ![4000]⟩
abbrev S4000x1 : Shape := ⟨2, ![4000, 1]⟩
abbrev S1700000x128 : Shape := ⟨2, ![1700000, 128]⟩
abbrev S1x128 : Shape := ⟨2, ![1, 128]⟩
abbrev S1x32 : Shape := ⟨2, ![1, 32]⟩
abbrev S1x1 : Shape := ⟨2, ![1, 1]⟩
abbrev S100000x1 : Shape := ⟨2, ![100000, 1]⟩
abbrev S4000x32 : Shape := ⟨2, ![4000, 32]⟩

abbrev nBuf : Space → Nat
  | .hbm => 120
  | .vmem => 34
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S3x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x32, .f32⟩
  | .hbm, ⟨17, _⟩ => ⟨S32, .f32⟩
  | .hbm, ⟨18, _⟩ => ⟨S32x1, .f32⟩
  | .hbm, ⟨19, _⟩ => ⟨S1, .f32⟩
  | .hbm, ⟨20, _⟩ => ⟨S100000, .i32⟩
  | .hbm, ⟨21, _⟩ => ⟨S1x1600000, .i32⟩
  | .hbm, ⟨22, _⟩ => ⟨S1600000, .i32⟩
  | .hbm, ⟨23, _⟩ => ⟨S1700000, .i32⟩
  | .hbm, ⟨24, _⟩ => ⟨S1x1600000, .i32⟩
  | .hbm, ⟨25, _⟩ => ⟨S1600000, .i32⟩
  | .hbm, ⟨26, _⟩ => ⟨S1700000, .i32⟩
  | .hbm, ⟨27, _⟩ => ⟨S_, .f32⟩
  | .hbm, ⟨28, _⟩ => ⟨S1700000, .f32⟩
  | .hbm, ⟨29, _⟩ => ⟨S_, .f32⟩
  | .hbm, ⟨30, _⟩ => ⟨S100000, .f32⟩
  | .hbm, ⟨31, _⟩ => ⟨S1700000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S100000x128, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x128, .f32⟩
  | .hbm, ⟨86, _⟩ => ⟨S1700000x1, .f32⟩
  | .hbm, ⟨87, _⟩ => ⟨S1700000x128, .f32⟩
  | .hbm, ⟨88, _⟩ => ⟨S1700000x128, .f32⟩
  | .hbm, ⟨89, _⟩ => ⟨S_, .f32⟩
  | .hbm, ⟨90, _⟩ => ⟨S100000x128, .f32⟩
  | .hbm, ⟨91, _⟩ => ⟨S1700000x1, .i32⟩
  | .hbm, ⟨92, _⟩ => ⟨S100000x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S100000x128, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x1, .f32⟩
  | .hbm, ⟨107, _⟩ => ⟨S1700000x128, .f32⟩
  | .hbm, ⟨108, _⟩ => ⟨S1700000x128, .f32⟩
  | .hbm, ⟨109, _⟩ => ⟨S_, .f32⟩
  | .hbm, ⟨110, _⟩ => ⟨S100000x128, .f32⟩
  | .hbm, ⟨111, _⟩ => ⟨S1700000x1, .i32⟩
  | .hbm, ⟨112, _⟩ => ⟨S100000x128, .f32⟩
  | .hbm, ⟨113, _⟩ => ⟨S1x128, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x32, .f32⟩
  | .hbm, ⟨118, _⟩ => ⟨S1x1, .f32⟩
  | .hbm, ⟨119, _⟩ => ⟨S100000x1, .f32⟩
  | .local _ .vmem, ⟨0, _⟩ => ⟨S4000x3, .f32⟩
  | .local _ .vmem, ⟨1, _⟩ => ⟨S4000x3, .f32⟩
  | .local _ .vmem, ⟨2, _⟩ => ⟨S3x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x32, .f32⟩
  | .local _ .vmem, ⟨29, _⟩ => ⟨S1x32, .f32⟩
  | .local _ .vmem, ⟨30, _⟩ => ⟨S32x1, .f32⟩
  | .local _ .vmem, ⟨31, _⟩ => ⟨S1x1, .f32⟩
  | .local _ .vmem, ⟨32, _⟩ => ⟨S4000x1, .f32⟩
  | .local _ .vmem, ⟨33, _⟩ => ⟨S4000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_8 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_11 : Ref sig .tc := ⟨.hbm, 97, rfl⟩
abbrev main_v64 : Ref sig .tc := ⟨.hbm, 98, rfl⟩
abbrev main_v65 : Ref sig .tc := ⟨.hbm, 99, rfl⟩
abbrev main_c_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg10_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem8_0 : DmaSem sig := 30
abbrev cc3_sem9_0 : DmaSem sig := 31
abbrev cc3_sem10_0 : DmaSem sig := 32
abbrev cc3_sem10_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S32x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4000x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x3_S4000x3_0_0 : ∀ a, (![0, 0] : Fin 2 → Nat) a + S4000x3.size a ≤ S4000x3.size a
  h_S4000x3 : 0 < S4000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S64x128_S64x128_0_0 : ∀ a, (![0, 0] : Fin 2 → Nat) a + S64x128.size a ≤ S64x128.size a
  h_S64x128 : 0 < S64x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S32_S1x32 : S32.ShapeCasts S1x32
  shapeCasts_S1_S1x1 : S1.ShapeCasts S1x1
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x3_S3x64_S4000x64_1_0_0_1_n_n_wf : DotDims.WF S4000x3 S3x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x128_S4000x128_1_0_0_1_n_n_wf : DotDims.WF S4000x64 S64x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S4000x128_S128x32_S4000x32_1_0_0_1_n_n_wf : DotDims.WF S4000x128 S128x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x32.size a ≤ S128x32.size a
  hwx3_6 : ∀ i : grid3.Coords, EltTy.bits .f32 = 32 ∨ (Rect.block (s := S128x32) S128x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S32x1.size a ≤ S32x1.size a
  hwx3_8 : ∀ i : grid3.Coords, EltTy.bits .f32 = 32 ∨ (Rect.block (s := S32x1) S32x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4000x1.size a ≤ S100000x1.size a
  hwx3_10 : ∀ i : grid3.Coords, EltTy.bits .f32 = 32 ∨ (Rect.block (s := S100000x1) S4000x1.size (cc3_transform_10 i) (hinb3_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x3_S3x64_S4000x64_1_0_0_1_n_n : DotDims S4000x3 S3x64 S4000x64 where
  lhsContracting := [1]
  rhsContracting := [0]
  lhsNonContracting := [0]
  rhsNonContracting := [1]
  lhsBatch := []
  rhsBatch := []
  wf := dot_S4000x3_S3x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v59) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S128x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S1x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S32x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v82) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v83) S4000x1.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S100000x128 : Shape := ⟨2, ![100000, 128]⟩
abbrev S1700000x128 : Shape := ⟨2, ![1700000, 128]⟩
abbrev S1x128 : Shape := ⟨2, ![1, 128]⟩
abbrev S100000x32 : Shape := ⟨2, ![100000, 32]⟩
abbrev S1x32 : Shape := ⟨2, ![1, 32]⟩
abbrev S1x1 : Shape := ⟨2, ![1, 1]⟩

abbrev nBuf : Space → Nat
  | .hbm => 230
  | .vmem => 0
  | .smem => 0
  | _ => 0

abbrev hbmTy0_0 (i : Nat) : BufTy := match i % 128 with
  | 0 => ⟨S100000x3, .f32⟩
  | 1 => ⟨S2x1600000, .i32⟩
  | 2 => ⟨S3x64, .f32⟩
  | 3 => ⟨S64, .f32⟩
  | 4 => ⟨S64, .f32⟩
  | 5 => ⟨S64, .f32⟩
  | 6 => ⟨S64x128, .f32⟩
  | 7 => ⟨S128, .f32⟩
  | 8 => ⟨S128, .f32⟩
  | 9 => ⟨S128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128, .f32⟩
  | 16 => ⟨S128x32, .f32⟩
  | 17 => ⟨S32, .f32⟩
  | 18 => ⟨S32x1, .f32⟩
  | 19 => ⟨S1, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000, .f32⟩
  | 78 => ⟨S100000x1, .f32⟩
  | 79 => ⟨S_, .f32⟩
  | 80 => ⟨S100000x1, .f32⟩
  | 81 => ⟨S100000x1, .f32⟩
  | 82 => ⟨S100000x64, .f32⟩
  | 83 => ⟨S100000x64, .f32⟩
  | 84 => ⟨S100000x64, .f32⟩
  | 85 => ⟨S_, .f32⟩
  | 86 => ⟨S100000, .f32⟩
  | 87 => ⟨S100000x1, .f32⟩
  | 88 => ⟨S_, .f32⟩
  | 89 => ⟨S100000x1, .f32⟩
  | 90 => ⟨S100000x1, .f32⟩
  | 91 => ⟨S100000x64, .f32⟩
  | 92 => ⟨S100000x64, .f32⟩
  | 93 => ⟨S_, .f32⟩
  | 94 => ⟨S100000x1, .f32⟩
  | 95 => ⟨S100000x1, .f32⟩
  | 96 => ⟨S100000x1, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x128, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x3, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S100000x128, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S_, .f32⟩
  | 18 => ⟨S100000x1, .f32⟩
  | 19 => ⟨S100000x1, .f32⟩
  | 20 => ⟨S100000x1, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000x128, .f32⟩
  | 42 => ⟨S1700000x1, .f32⟩
  | 43 => ⟨S1700000x128, .f32⟩
  | 44 => ⟨S1700000x128, .f32⟩
  | 45 => ⟨S_, .f32⟩
  | 46 => ⟨S100000x128, .f32⟩
  | 47 => ⟨S1700000x1, .i32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000, .f32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S100000x128, .f32⟩
  | 61 => ⟨S_, .f32⟩
  | 62 => ⟨S100000, .f32⟩
  | 63 => ⟨S100000x1, .f32⟩
  | 64 => ⟨S_, .f32⟩
  | 65 => ⟨S100000x1, .f32⟩
  | 66 => ⟨S100000x1, .f32⟩
  | 67 => ⟨S100000x128, .f32⟩
  | 68 => ⟨S100000x128, .f32⟩
  | 69 => ⟨S_, .f32⟩
  | 70 => ⟨S100000x1, .f32⟩
  | 71 => ⟨S100000x1, .f32⟩
  | 72 => ⟨S100000x1, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x32, .f32⟩
  | 92 => ⟨S1x32, .f32⟩
  | 93 => ⟨S100000x32, .f32⟩
  | 94 => ⟨S100000x32, .f32⟩
  | 95 => ⟨S_, .f32⟩
  | 96 => ⟨S100000x32, .f32⟩
  | 97 => ⟨S100000x32, .f32⟩
  | 98 => ⟨S100000x1, .f32⟩
  | 99 => ⟨S1x1, .f32⟩
  | 100 => ⟨S100000x1, .f32⟩
  | 101 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call0_cst : Ref sig .tc := ⟨.hbm, 105, rfl⟩
abbrev main_call0_v0 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_c_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_18 : Ref sig .tc := ⟨.hbm, 137, rfl⟩
abbrev main_v95 : Ref sig .tc := ⟨.hbm, 138, rfl⟩
abbrev main_v96 : Ref sig .tc := ⟨.hbm, 139, rfl⟩
abbrev main_cst_19 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_20 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call1_cst : Ref sig .tc := ⟨.hbm, 157, rfl⟩
abbrev main_call1_v0 : Ref sig .tc := ⟨.hbm, 158, rfl⟩
abbrev main_v112 : Ref sig .tc := ⟨.hbm, 159, rfl⟩
abbrev main_v113 : Ref sig .tc := ⟨.hbm, 160, rfl⟩
abbrev main_c_21 : Ref sig .tc := ⟨.hbm, 161, rfl⟩
abbrev main_v114 : Ref sig .tc := ⟨.hbm, 162, rfl⟩
abbrev main_v115 : Ref sig .tc := ⟨.hbm, 163, rfl⟩
abbrev main_c_22 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_23 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_24 : Ref sig .tc := ⟨.hbm, 180, rfl⟩
abbrev main_v130 : Ref sig .tc := ⟨.hbm, 181, rfl⟩
abbrev main_v131 : Ref sig .tc := ⟨.hbm, 182, rfl⟩
abbrev main_cst_25 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_26 : Ref sig .tc := ⟨.hbm, 189, rfl⟩
abbrev main_v137 : Ref sig .tc := ⟨.hbm, 190, rfl⟩
abbrev main_v138 : Ref sig .tc := ⟨.hbm, 191, rfl⟩
abbrev main_cst_27 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_28 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_call2_cst : Ref sig .tc := ⟨.hbm, 209, rfl⟩
abbrev main_call2_v0 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_call3_cst : Ref sig .tc := ⟨.hbm, 216, rfl⟩
abbrev main_call3_v0 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_call4_cst : Ref sig .tc := ⟨.hbm, 223, rfl⟩
abbrev main_call4_v0 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x3_S3x64_S100000x64_1_0_0_1_n_n_wf : DotDims.WF S100000x3 S3x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run, with its result named.

  The program is four kernel launches among stretches of host operations. Its run is the library's run of a list of
  segments: every weakly fair execution terminates without a fault, and when it does every buffer that lives for
  the whole program holds the contents the last segment boundary assigns it (`Gen.W8`: the fold of the host
  stretches' results and the kernels' write-backs from the launch memory). The statement below keeps that for ALL
  such buffers (`run_all`); reading it at the result buffer and at the twenty arguments gives the run in the form
  the claim about values needs (`run_result`): the result buffer ends at `Gen.W8 … main_v83`, the arguments as launched.
-/
import proofs.«152832_j58067957842223_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that lives for the
    whole program ends at the contents the last segment boundary gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨h c _ (mem_uc main_v83 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c),
     (h c _ (mem_uc main_arg19 (by decide))).trans (W8_main_arg19 m ρ c)⟩)
    (run_all m ρ)

end Cert.KernelIdeal.Whole

end
-- ==== Proof.RowSpec.lean ====
/-
  The network, one node at a time, on the extended reals.

  After each aggregation over the graph, a node's new feature row depends on that node's aggregated row alone. So
  the whole computation between two aggregations is a function of ONE row, and this module states those functions
  with no array in sight:

  * `lnRelu cnt t g be` — layer normalisation of a row `t` of width `d` followed by the positive part. With
    `μ = (∑ t) / cnt` and `σ² = (∑ (t - μ)²) / cnt`, entry `k` is `max ((t k - μ) · rsqrt (σ² + ε) · g k + be k) 0`.
    The divisor `cnt` is the width as a float word (64 or 128) and `ε` is the float word nearest to 1e-5; both
    are kept as the words the programs carry, since the same word appears on both sides and is never evaluated.
  * `layerAt` — one graph layer's dense part at output column `q`: `∑ k, lnRelu … k · W k q`.
  * `denseRelu`, `denseLin` — an affine map of a row, with and without the positive part.
  * `head` — the last normalisation followed by the three affine maps of the read-out.

  Division, `rsqrt` and `max` are the extended reals' own (`Ideal.div`, `Ideal.rsqrt`): no law about them is used
  anywhere, because both programs apply the same operations in the same order to each row; only the sums are
  re-indexed.
-/
import Idealize.ShloMosaic.PureOps.Ideal.Laws
import Idealize.ShloMosaic.Lib.ValueIdx

noncomputable section

namespace Cert.Gcn

open Idealize.ShloMosaic

/-- The float word for zero, as the programs carry it. -/
abbrev zeroW : EReal := Ideal.ofBits .f32 0x00000000#32
/-- The float word nearest to 1e-5: the normalisation's `ε`. -/
abbrev epsW : EReal := Ideal.ofBits .f32 0x3727C5AC#32
/-- The float word for 64. -/
abbrev w64 : EReal := Ideal.ofBits .f32 0x42800000#32
/-- The float word for 128. -/
abbrev w128 : EReal := Ideal.ofBits .f32 0x43000000#32

/-- A row's mean: its sum divided by the count word. -/
def mean {d : Nat} (cnt : EReal) (t : Fin d → EReal) : EReal := Ideal.div (∑ j, t j) cnt

/-- A row's variance about its mean, divided by the same count word. -/
def var {d : Nat} (cnt : EReal) (t : Fin d → EReal) : EReal :=
  Ideal.div (∑ j, (t j - mean cnt t) * (t j - mean cnt t)) cnt

/-- Layer normalisation of the row `t` with gain `g` and offset `be`, then the positive part. -/
def lnRelu {d : Nat} (cnt : EReal) (t g be : Fin d → EReal) (k : Fin d) : EReal :=
  max ((t k - mean cnt t) * Ideal.rsqrt (var cnt t + epsW) * g k + be k) zeroW

/-- One layer's dense part at output column `q`: the normalised row times column `q` of the weights. -/
def layerAt {d e : Nat} (cnt : EReal) (t g be : Fin d → EReal) (W : Fin d → Fin e → EReal) (q : Fin e) : EReal :=
  ∑ k, lnRelu cnt t g be k * W k q

/-- An affine map of the row `h`, then the positive part. -/
def denseRelu {d e : Nat} (h : Fin d → EReal) (W : Fin d → Fin e → EReal) (b : Fin e → EReal) (q : Fin e) : EReal :=
  max (∑ k, h k * W k q + b q) zeroW

/-- An affine map of the row `h`. -/
def denseLin {d e : Nat} (h : Fin d → EReal) (W : Fin d → Fin e → EReal) (b : Fin e → EReal) (q : Fin e) : EReal :=
  ∑ k, h k * W k q + b q

/-- The read-out of one node: normalise its last aggregated row (width 128), then 128 → 128 → 32 → 1. -/
def head (t g be : Fin 128 → EReal) (W0 : Fin 128 → Fin 128 → EReal) (b0 : Fin 128 → EReal)
    (W1 : Fin 128 → Fin 32 → EReal) (b1 : Fin 32 → EReal) (W2 : Fin 32 → Fin 1 → EReal) (b2 : Fin 1 → EReal)
    (q : Fin 1) : EReal :=
  denseLin (denseRelu (denseRelu (lnRelu w128 t g be) W0 b0) W1 b1) W2 b2 q

end Cert.Gcn

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.KernelRows.lean ====
/-
  The four kernel bodies, read at one entry.

  Each body computes a block of 4000 rows from the blocks it loads. Every operation in it is either pointwise, or one of
  five re-indexings: a row [1, d] repeated over the 4000 rows, a sum along a row, that sum laid out as a column [4000, 1],
  a column repeated along a row, and a product contracted over one axis into a zero accumulator. This module reads each
  of the five at an entry (p, q), and concludes that entry (p, q) of each body is the row function of `Cert.Gcn` applied
  to row p of the loaded block: the first body a plain product, the second and third a layer normalisation, positive part
  and product, the fourth the read-out.
-/
import proofs.«152832_j58067957842223_1_alg».proof.Proof.Gen.KernelIdeal.Skeleton
import proofs.«152832_j58067957842223_1_alg».proof.Proof.RowSpec
import proofs.«152832_j58067957842223_1_alg».proof.Proof.LibDotSum
import proofs.«152832_j58067957842223_1_alg».proof.Proof.LibOuterSum
import Idealize.ShloMosaic.Lib.ValueLayout

noncomputable section

namespace Cert.KernelRows

open Idealize.ShloMosaic Idealize.ShloMosaic.ValueIdx Cert.KernelIdeal Cert.KernelIdeal.Gen

/-! ## The re-indexing operations at an entry -/

/-- A product of an `M × K` by a `K × N` block contracted over the shared axis into the zero block is, at `(p, q)`, the sum
    over `k` of `A (p, k) · B (k, q)`. -/
theorem matmul_zero_at {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ φ₁) (B : FVec Ideal ⟨2, ![K, N]⟩ φ₂) (p : Fin M) (q : Fin N) :
    matmul D none A B (constant ⟨2, ![M, N]⟩ .f32 0x00000000#32) (ix2 p q) = ∑ k : Fin K, A (ix2 p k) * B (ix2 k q) :=
  (Ideal.matmul_constant_zero_apply D none A B (ix2 p q)).trans (Cert.LibDotSum.sum_dot D hr hs hl0 hl1 hr0 hr1 A B p q)

/-- A sum along the rows of an `n × d` block, at row `p`, is the sum over `k` of the block at `(p, k)`: the index
    of the sum at `p` with `k` put back on the summed axis is `(p, k)`. -/
theorem lane_sum {n d : Nat} (v : FVec Ideal ⟨2, ![n, d]⟩ .f32) (h : (⟨2, ![n, d]⟩ : Shape).Reduces [1] ⟨1, ![n]⟩) (p : Fin n) :
    multiReduction (F := Ideal) .add [1] ⟨1, ![n]⟩ v 0x00000000#32 h (.inl rfl) rfl (ix1 p) = ∑ k : Fin d, v (ix2 p k) := by
  refine (Ideal.multiReduction_add_single v 0x00000000#32 h (.inl rfl) rfl (ix1 p)).trans ?_
  refine Finset.sum_congr rfl fun k _ => congrArg v ?_
  funext c
  match c with
  | ⟨0, _⟩ => rfl
  | ⟨1, _⟩ => rfl

/-- A reciprocal square root of a block, at an entry, is that of the entry. -/
theorem rsqrt_apply {s : Shape} {φ : FTy} (a : FVec Ideal s φ) (i : s.Idx) : rsqrt a i = Ideal.rsqrt (a i) := rfl

/-! ## The first body: a product -/

/-- Entry `(p, q)` of the first body is row `p` of the loaded block times column `q` of the weights. -/
theorem k0_at (v0 : Vec Ideal S4000x3 .f32) (v2 : Vec Ideal S3x64 .f32) (p : Fin 4000) (q : Fin 64) :
    k0_pay1 (F := Ideal) v0 v2 (ix2 p q) = ∑ k : Fin 3, v0 (ix2 p k) * v2 (ix2 k q) := by
  unfold k0_pay1
  exact matmul_zero_at dot_S4000x3_S3x64_S4000x64_1_0_0_1_n_n rfl rfl (fun _ _ => rfl) (fun _ _ => rfl) (fun _ _ => rfl)
    (fun _ _ => rfl) (truncf .bf16 v0 bitsLt_bf16_f32) (truncf .bf16 v2 bitsLt_bf16_f32) p q

/-! ## The second and third bodies: normalise a row, take the positive part, multiply -/

/-- Entry `(p, q)` of the second body: the layer function at width 64 of row `p` of the loaded block plus the bias row. -/
theorem k1_at (v0 : Vec Ideal S4000x64 .f32) (v2 v24 v28 : Vec Ideal S1x64 .f32) (v35 : Vec Ideal S64x128 .f32)
    (p : Fin 4000) (q : Fin 128) :
    k1_pay1 (F := Ideal) v0 v2 v24 v28 v35 (ix2 p q)
      = Cert.Gcn.layerAt Cert.Gcn.w64 (fun j => v0 (ix2 p j) + v2 (ix2 (0 : Fin 1) j)) (fun j => v24 (ix2 (0 : Fin 1) j))
          (fun j => v28 (ix2 (0 : Fin 1) j)) (fun k q => v35 (ix2 k q)) q := by
  have hmm : ∀ (A : FVec Ideal S4000x64 .bf16) (B : FVec Ideal S64x128 .bf16) (p : Fin 4000) (q : Fin 128),
      matmul dot_S4000x64_S64x128_S4000x128_1_0_0_1_n_n none A B (constant S4000x128 .f32 0x00000000#32) (ix2 p q)
        = ∑ k : Fin 64, A (ix2 p k) * B (ix2 k q) :=
    fun A B p q => matmul_zero_at _ rfl rfl (fun _ _ => rfl) (fun _ _ => rfl) (fun _ _ => rfl) (fun _ _ => rfl) A B p q
  have hsum : ∀ (v : FVec Ideal S4000x64 .f32) (p : Fin 4000),
      multiReduction .add [1] S4000 v 0x00000000#32 reduces_S4000x64_S4000 (.inl rfl) rfl (ix1 p) = ∑ k : Fin 64, v (ix2 p k) :=
    fun v p => lane_sum v _ p
  have hrow : ∀ (x : FVec Ideal S1x64 .f32) (p : Fin 4000) (j : Fin 64),
      broadcastTo S4000x64 x broadcasts_S1x64_S4000x64 (ix2 p j) = x (ix2 (0 : Fin 1) j) :=
    fun x p j => broadcastTo_1b_ab_apply x _ p j
  have hcol : ∀ (x : FVec Ideal S4000x1 .f32) (p : Fin 4000) (j : Fin 64),
      broadcastTo S4000x64 x broadcasts_S4000x1_S4000x64 (ix2 p j) = x (ix2 p (⟨0, Nat.one_pos⟩ : Fin 1)) :=
    fun x p j => Cert.LibOuterSum.bcast_col_apply x _ p j
  have hvec : ∀ (x : FVec Ideal S4000 .f32) (p : Fin 4000) (u : Fin 1),
      shapeCast S4000x1 x shapeCasts_S4000_S4000x1 (ix2 p u) = x (ix1 p) :=
    fun x p u => Cert.LibOuterSum.col_of_vec_apply x _ p u
  unfold k1_pay1
  simp only [hmm, hsum, hrow, hcol, hvec, shapeCast_self, truncf_apply, maximumf_apply, addf_apply, mulf_apply, subf_apply,
    divf_apply, rsqrt_apply, broadcast_apply, Ideal.ofBits_def, Cert.Gcn.layerAt, Cert.Gcn.lnRelu, Cert.Gcn.mean, Cert.Gcn.var,
    Cert.Gcn.w64, Cert.Gcn.w128, Cert.Gcn.epsW, Cert.Gcn.zeroW] <;> rfl

/-- Entry `(p, q)` of the third body: the layer function at width 128 of row `p` of the loaded block plus the bias row. -/
theorem k2_at (v0 : Vec Ideal S4000x128 .f32) (v2 v24 v28 : Vec Ideal S1x128 .f32) (v35 : Vec Ideal S128x128 .f32)
    (p : Fin 4000) (q : Fin 128) :
    k2_pay1 (F := Ideal) v0 v2 v24 v28 v35 (ix2 p q)
      = Cert.Gcn.layerAt Cert.Gcn.w128 (fun j => v0 (ix2 p j) + v2 (ix2 (0 : Fin 1) j)) (fun j => v24 (ix2 (0 : Fin 1) j))
          (fun j => v28 (ix2 (0 : Fin 1) j)) (fun k q => v35 (ix2 k q)) q := by
  have hmm : ∀ (A : FVec Ideal S4000x128 .bf16) (B : FVec Ideal S128x128 .bf16) (p : Fin 4000) (q : Fin 128),
      matmul dot_S4000x128_S128x128_S4000x128_1_0_0_1_n_n none A B (constant S4000x128 .f32 0x00000000#32) (ix2 p q)
        = ∑ k : Fin 128, A (ix2 p k) * B (ix2 k q) :=
    fun A B p q => matmul_zero_at _ rfl rfl (fun _ _ => rfl) (fun _ _ => rfl) (fun _ _ => rfl) (fun _ _ => rfl) A B p q
  have hsum : ∀ (v : FVec Ideal S4000x128 .f32) (p : Fin 4000),
      multiReduction .add [1] S4000 v 0x00000000#32 reduces_S4000x128_S4000 (.inl rfl) rfl (ix1 p) = ∑ k : Fin 128, v (ix2 p k) :=
    fun v p => lane_sum v _ p
  have hrow : ∀ (x : FVec Ideal S1x128 .f32) (p : Fin 4000) (j : Fin 128),
      broadcastTo S4000x128 x broadcasts_S1x128_S4000x128 (ix2 p j) = x (ix2 (0 : Fin 1) j) :=
    fun x p j => broadcastTo_1b_ab_apply x _ p j
  have hcol : ∀ (x : FVec Ideal S4000x1 .f32) (p : Fin 4000) (j : Fin 128),
      broadcastTo S4000x128 x broadcasts_S4000x1_S4000x128 (ix2 p j) = x (ix2 p (⟨0, Nat.one_pos⟩ : Fin 1)) :=
    fun x p j => Cert.LibOuterSum.bcast_col_apply x _ p j
  have hvec : ∀ (x : FVec Ideal S4000 .f32) (p : Fin 4000) (u : Fin 1),
      shapeCast S4000x1 x shapeCasts_S4000_S4000x1 (ix2 p u) = x (ix1 p) :=
    fun x p u => Cert.LibOuterSum.col_of_vec_apply x _ p u
  unfold k2_pay1
  simp only [hmm, hsum, hrow, hcol, hvec, shapeCast_self, truncf_apply, maximumf_apply, addf_apply, mulf_apply, subf_apply,
    divf_apply, rsqrt_apply, broadcast_apply, Ideal.ofBits_def, Cert.Gcn.layerAt, Cert.Gcn.lnRelu, Cert.Gcn.mean, Cert.Gcn.var,
    Cert.Gcn.w64, Cert.Gcn.w128, Cert.Gcn.epsW, Cert.Gcn.zeroW] <;> rfl

/-! ## The fourth body: the read-out -/

/-- The fourth body's first part is the third body's text: the same layer function. -/
theorem k3_pay2_at (v0 : Vec Ideal S4000x128 .f32) (v2 v24 v28 : Vec Ideal S1x128 .f32) (v35 : Vec Ideal S128x128 .f32)
    (p : Fin 4000) (q : Fin 128) :
    k3_pay2 (F := Ideal) v0 v2 v24 v28 v35 (ix2 p q)
      = Cert.Gcn.layerAt Cert.Gcn.w128 (fun j => v0 (ix2 p j) + v2 (ix2 (0 : Fin 1) j)) (fun j => v24 (ix2 (0 : Fin 1) j))
          (fun j => v28 (ix2 (0 : Fin 1) j)) (fun k q => v35 (ix2 k q)) q :=
  k2_at v0 v2 v24 v28 v35 p q

/-- Entry `(p, q)` of the fourth body: the read-out of row `p` of the loaded block plus the bias row. -/
theorem k3_at (v0 : Vec Ideal S4000x128 .f32) (v2 v24 v28 : Vec Ideal S1x128 .f32) (v35 : Vec Ideal S128x128 .f32)
    (v38 : Vec Ideal S1x128 .f32) (v45 : Vec Ideal S128x32 .f32) (v48 : Vec Ideal S1x32 .f32) (v55 : Vec Ideal S32x1 .f32)
    (v58 : Vec Ideal S1x1 .f32) (p : Fin 4000) (q : Fin 1) :
    k3_pay1 (F := Ideal) (k3_pay2 (F := Ideal) v0 v2 v24 v28 v35) (k3_pay3 (F := Ideal) v38) v45 v48 v55 v58 (ix2 p q)
      = Cert.Gcn.head (fun j => v0 (ix2 p j) + v2 (ix2 (0 : Fin 1) j)) (fun j => v24 (ix2 (0 : Fin 1) j))
          (fun j => v28 (ix2 (0 : Fin 1) j)) (fun k q => v35 (ix2 k q)) (fun j => v38 (ix2 (0 : Fin 1) j))
          (fun k q => v45 (ix2 k q)) (fun j => v48 (ix2 (0 : Fin 1) j)) (fun k q => v55 (ix2 k q))
          (fun j => v58 (ix2 (0 : Fin 1) j)) q := by
  have hmm1 : ∀ (A : FVec Ideal S4000x128 .bf16) (B : FVec Ideal S128x32 .bf16) (p : Fin 4000) (q : Fin 32),
      matmul dot_S4000x128_S128x32_S4000x32_1_0_0_1_n_n none A B (constant S4000x32 .f32 0x00000000#32) (ix2 p q)
        = ∑ k : Fin 128, A (ix2 p k) * B (ix2 k q) :=
    fun A B p q => matmul_zero_at _ rfl rfl (fun _ _ => rfl) (fun _ _ => rfl) (fun _ _ => rfl) (fun _ _ => rfl) A B p q
  have hmm2 : ∀ (A : FVec Ideal S4000x32 .bf16) (B : FVec Ideal S32x1 .bf16) (p : Fin 4000) (q : Fin 1),
      matmul dot_S4000x32_S32x1_S4000x1_1_0_0_1_n_n none A B (constant S4000x1 .f32 0x00000000#32) (ix2 p q)
        = ∑ k : Fin 32, A (ix2 p k) * B (ix2 k q) :=
    fun A B p q => matmul_zero_at _ rfl rfl (fun _ _ => rfl) (fun _ _ => rfl) (fun _ _ => rfl) (fun _ _ => rfl) A B p q
  have hrow128 : ∀ (x : FVec Ideal S1x128 .f32) (p : Fin 4000) (j : Fin 128),
      broadcastTo S4000x128 x broadcasts_S1x128_S4000x128 (ix2 p j) = x (ix2 (0 : Fin 1) j) :=
    fun x p j => broadcastTo_1b_ab_apply x _ p j
  have hrow32 : ∀ (x : FVec Ideal S1x32 .f32) (p : Fin 4000) (j : Fin 32),
      broadcastTo S4000x32 x broadcasts_S1x32_S4000x32 (ix2 p j) = x (ix2 (0 : Fin 1) j) :=
    fun x p j => broadcastTo_1b_ab_apply x _ p j
  have hrow1 : ∀ (x : FVec Ideal S1x1 .f32) (p : Fin 4000) (j : Fin 1),
      broadcastTo S4000x1 x broadcasts_S1x1_S4000x1 (ix2 p j) = x (ix2 (0 : Fin 1) j) :=
    fun x p j => broadcastTo_1b_ab_apply x _ p j
  unfold k3_pay1 k3_pay3
  simp only [hmm1, hmm2, hrow128, hrow32, hrow1, shapeCast_self, truncf_apply, maximumf_apply, addf_apply, broadcast_apply,
    Ideal.ofBits_def, k3_pay2_at, Cert.Gcn.head, Cert.Gcn.denseLin, Cert.Gcn.denseRelu, Cert.Gcn.layerAt, Cert.Gcn.zeroW] <;> rfl

end Cert.KernelRows

end
-- ==== Proof.Layer0Array.lean ====
/-
  The first product as one array.

  The first kernel launch multiplies the node features `x` (100000 rows of 3) by the first weight matrix (3 × 64), 4000
  rows at a time: grid point `t` of 25 reads rows `4000 t … 4000 t + 3999` of `x` and the whole weight matrix, and
  writes the same rows of the result. Every row of the result lies in exactly one of the 25 blocks, so after the
  launch the result array is, whatever the arrays held when the launch was entered,
      (i, q) ↦ ∑ k, x (i, k) · W (k, q)
  of the two arrays as the launch found them (`product_array`).
-/
import proofs.«152832_j58067957842223_1_alg».proof.Proof.Gen.KernelIdeal.Frame
import proofs.«152832_j58067957842223_1_alg».proof.Proof.KernelRows
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- A block's offsets inside its staging buffer are all zero. -/
theorem zero_offsets : (![0, 0] : Fin 2 → Nat) = fun _ => 0 := funext fun a => by fin_cases a <;> rfl

/-- Row `p` of block `t` is row `4000 t + p` of the array. -/
def rowAt (t : Nat) (ht : t < 25) (p : Fin 4000) : Fin 100000 := ⟨4000 * t + p.val, by have := p.isLt; omega⟩

theorem lt25_0 (t : Fin cfg0.N) : t.val < 25 := by
  have h := t.isLt
  have e : cfg0.N = 25 := N_0
  omega

/-- The first product, as a whole array, of the feature array and the weight matrix. -/
def productRows (X : S100000x3.Idx → EReal) (W : S3x64.Idx → EReal) : S100000x64.Idx → EReal :=
  fun i => ∑ k : Fin 3, X (ix2 (i 0) k) * W (ix2 k (i 1))

/-- Which block of its array each window holds at grid point `t`: the features' and the result's move down with `t`,
    the weights' stays (decided over the 25 points). -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `4000 t …` of the feature array. -/
theorem features_block (c : Dev nD) (t : Fin cfg0.N) (p : Fin 4000) (k : Fin 3) :
    (iblk0 V c 0 t : Vec Ideal S4000x3 .f32) (ix2 p k)
      = (V c main_arg0 : S100000x3.Idx → EReal) (ix2 (rowAt t.val (lt25_0 t) p) k) := by
  obtain ⟨e0, e1, -⟩ := block_index0 t
  unfold iblk0
  rw [View.read_apply]
  show V c main_arg0 _ = V c main_arg0 _
  congr 1
  funext a
  apply Fin.ext
  match a with
  | ⟨0, _⟩ => show win0_0.index t 0 * 4000 + 1 * p.val = 4000 * t.val + p.val; rw [e0]; omega
  | ⟨1, _⟩ => show win0_0.index t 1 * 3 + 1 * k.val = k.val; rw [e1]; omega

/-- The weight block at every point is the whole weight matrix. -/
theorem weights_block (c : Dev nD) (t : Fin cfg0.N) (k : Fin 3) (q : Fin 64) :
    (iblk0 V c 1 t : Vec Ideal S3x64 .f32) (ix2 k q) = (V c main_arg2 : S3x64.Idx → EReal) (ix2 k q) := by
  obtain ⟨-, -, e0, e1, -⟩ := block_index0 t
  unfold iblk0
  rw [View.read_apply]
  show V c main_arg2 _ = V c main_arg2 _
  congr 1
  funext a
  apply Fin.ext
  match a with
  | ⟨0, _⟩ => show win0_1.index t 0 * 3 + 1 * k.val = k.val; rw [e0]; omega
  | ⟨1, _⟩ => show win0_1.index t 1 * 64 + 1 * q.val = q.val; rw [e1]; omega

/-- What point `t` writes back is block `t` of the product array. -/
theorem product_block (c : Dev nD) (t : Fin cfg0.N) :
    (dat0 V c).flushed 2 t = ((cfg0.win 2).blk t).view.read (Elt Ideal) (productRows (V c main_arg0) (V c main_arg2)) := by
  obtain ⟨-, -, -, -, e0, e1⟩ := block_index0 t
  show (cfg0.win 2).cut (grid0.coords t) ((dat0 V c).after 2 t) = _
  rw [after0_2]
  unfold out0_2
  rw [View.canon_unit_zero zero_offsets]
  simp only [View.ld_unit_zero (S := S4000x3) zero_offsets, View.ld_unit_zero (S := S3x64) zero_offsets]
  funext j
  obtain ⟨p, q, rfl⟩ : ∃ (p : Fin 4000) (q : Fin 64), j = ix2 p q := ⟨j 0, j 1, eq_ix2 j⟩
  have he : ((cfg0.win 2).blk t).view.emb (ix2 p q) = (ix2 (rowAt t.val (lt25_0 t) p) q : S100000x64.Idx) := by
    funext a
    apply Fin.ext
    match a with
    | ⟨0, _⟩ => show win0_2.index t 0 * 4000 + 1 * p.val = 4000 * t.val + p.val; rw [e0]; omega
    | ⟨1, _⟩ => show win0_2.index t 1 * 64 + 1 * q.val = q.val; rw [e1]; omega
  show k0_pay1 (F := Ideal) (iblk0 V c 0 t) (iblk0 V c 1 t) (ix2 p q)
    = productRows (V c main_arg0) (V c main_arg2) (((cfg0.win 2).blk t).view.emb (ix2 p q))
  rw [he]
  refine (Cert.KernelRows.k0_at _ _ p q).trans ?_
  unfold productRows
  refine Finset.sum_congr rfl fun k _ => ?_
  rw [features_block V c t p k, weights_block V c t k q] <;> rfl

/-- An index of the result array is in point `t`'s block iff each coordinate is in the block's range on its axis. -/
theorem mem_product_block (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v29).slice (win0_2.rect t)).set ↔ _
  rw [View.set_slice_whole, Rect.mem_set_unit]
  exact Iff.rfl

/-- Every index of the result array lies in the block of the point `⌊row / 4000⌋`. -/
theorem product_cover (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 25 := N_0
  refine ⟨⟨(i 0).val / 4000, by omega⟩, flush0_2 _, ?_⟩
  rw [mem_product_block]
  obtain ⟨-, -, -, -, e0, e1⟩ := block_index0 ⟨(i 0).val / 4000, by omega⟩
  intro a
  match a with
  | ⟨0, _⟩ =>
    show win0_2.index _ 0 * 4000 ≤ (i 0).val ∧ (i 0).val < win0_2.index _ 0 * 4000 + 4000
    rw [e0]; show (i 0).val / 4000 * 4000 ≤ (i 0).val ∧ (i 0).val < (i 0).val / 4000 * 4000 + 4000; omega
  | ⟨1, _⟩ =>
    show win0_2.index _ 1 * 64 ≤ (i 1).val ∧ (i 1).val < win0_2.index _ 1 * 64 + 64
    rw [e1]; omega

/-- After the launch the result array is the product of the two arrays as the launch found them. -/
theorem product_array (c : Dev nD) :
    (dat0 V c).arrAt 2 cfg0.N = productRows (V c main_arg0) (V c main_arg2) :=
  (dat0 V c).arrAt_eq_of_cover 2 _ (fun t _ => product_block V c t) product_cover

end Cert.KernelIdeal.Arrays

end
-- ==== Proof.HeadArray.lean ====
/-
  The read-out as one array.

  The last launch takes the third aggregation's rows (100000 rows of 128), adds the layer's bias, normalises each row,
  takes the positive part, and applies the three affine maps 128 → 128 → 32 → 1 (the first two followed by the positive
  part), 4000 rows at a time: grid point `t` of 25 reads rows `4000 t … 4000 t + 3999` of the aggregated array and the whole
  of the nine small arrays, and writes the same rows of the one-column result. A row of the result depends on the same
  row of the input alone, and every row lies in exactly one of the 25 blocks, so after the launch the result array is the
  per-row function `Cert.Gcn.head` applied to every row of the arrays as the launch found them (`head_array`).
-/
import proofs.«152832_j58067957842223_1_alg».proof.Proof.Layer0Array

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem lt25_3 (t : Fin cfg3.N) : t.val < 25 := by
  have h := t.isLt
  have e : cfg3.N = 25 := N_3
  omega

/-- The read-out as a whole array: row `i` is `Cert.Gcn.head` of row `i` of the aggregated array -/
def headRows (A : S100000x128.Idx → EReal) (b g be : S1x128.Idx → EReal) (W0 : S128x128.Idx → EReal) (b0 : S1x128.Idx → EReal) (W1 : S128x32.Idx → EReal) (b1 : S1x32.Idx → EReal) (W2 : S32x1.Idx → EReal) (b2 : S1x1.Idx → EReal) : S100000x1.Idx → EReal :=
  fun i => Cert.Gcn.head (fun j => A (ix2 (i 0) j) + b (ix2 (0 : Fin 1) j)) (fun j => g (ix2 (0 : Fin 1) j)) (fun j => be (ix2 (0 : Fin 1) j)) (fun k q => W0 (ix2 k q)) (fun j => b0 (ix2 (0 : Fin 1) j)) (fun k q => W1 (ix2 k q)) (fun j => b1 (ix2 (0 : Fin 1) j)) (fun k q => W2 (ix2 k q)) (fun j => b2 (ix2 (0 : Fin 1) j)) (i 1)

/-- Which block of its array each window holds at grid point `t`: the row-blocked arrays' move down with `t`, the
    others' stay (decided over the 25 points). -/
theorem block_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = t.val ∧ win3_10.index t (1 : Fin 2) = 0 :=
  (by decide +kernel : ∀ t : Fin grid3.N, _)

/-- Window 0's block at point `t` is rows `4000 t …` of its array. -/
theorem rows_block3 (c : Dev nD) (t : Fin cfg3.N) (p : Fin 4000) (j : Fin 128) :
    (iblk3 V c 0 t : Vec Ideal S4000x128 .f32) (ix2 p j)
      = (V c main_v76 : S100000x128.Idx → EReal) (ix2 (rowAt t.val (lt25_3 t) p) j) := by
  obtain ⟨e0, e1, -⟩ := block_index3 t
  unfold iblk3
  rw [View.read_apply]
  show V c main_v76 _ = V c main_v76 _
  congr 1
  funext a
  apply Fin.ext
  match a with
  | ⟨0, _⟩ => show win3_0.index t 0 * 4000 + 1 * p.val = 4000 * t.val + p.val; rw [e0]; omega
  | ⟨1, _⟩ => show win3_0.index t 1 * 128 + 1 * j.val = j.val; rw [e1]; omega

/-- Window 1's block at every point is its whole array. -/
theorem whole_block3_1 (c : Dev nD) (t : Fin cfg3.N) (a : Fin 1) (b : Fin 128) :
    (iblk3 V c 1 t : Vec Ideal S1x128 .f32) (ix2 a b) = (V c main_v77 : S1x128.Idx → EReal) (ix2 a b) := by
  obtain ⟨-, -, e0, e1, -⟩ := block_index3 t
  unfold iblk3
  rw [View.read_apply]
  show V c main_v77 _ = V c main_v77 _
  congr 1
  funext x
  apply Fin.ext
  match x with
  | ⟨0, _⟩ => show win3_1.index t 0 * 1 + 1 * a.val = a.val; rw [e0]; omega
  | ⟨1, _⟩ => show win3_1.index t 1 * 128 + 1 * b.val = b.val; rw [e1]; omega

/-- Window 2's block at every point is its whole array. -/
theorem whole_block3_2 (c : Dev nD) (t : Fin cfg3.N) (a : Fin 1) (b : Fin 128) :
    (iblk3 V c 2 t : Vec Ideal S1x128 .f32) (ix2 a b) = (V c main_v78 : S1x128.Idx → EReal) (ix2 a b) := by
  obtain ⟨-, -, -, -, e0, e1, -⟩ := block_index3 t
  unfold iblk3
  rw [View.read_apply]
  show V c main_v78 _ = V c main_v78 _
  congr 1
  funext x
  apply Fin.ext
  match x with
  | ⟨0, _⟩ => show win3_2.index t 0 * 1 + 1 * a.val = a.val; rw [e0]; omega
  | ⟨1, _⟩ => show win3_2.index t 1 * 128 + 1 * b.val = b.val; rw [e1]; omega

/-- Window 3's block at every point is its whole array. -/
theorem whole_block3_3 (c : Dev nD) (t : Fin cfg3.N) (a : Fin 1) (b : Fin 128) :
    (iblk3 V c 3 t : Vec Ideal S1x128 .f32) (ix2 a b) = (V c main_v79 : S1x128.Idx → EReal) (ix2 a b) := by
  obtain ⟨-, -, -, -, -, -, e0, e1, -⟩ := block_index3 t
  unfold iblk3
  rw [View.read_apply]
  show V c main_v79 _ = V c main_v79 _
  congr 1
  funext x
  apply Fin.ext
  match x with
  | ⟨0, _⟩ => show win3_3.index t 0 * 1 + 1 * a.val = a.val; rw [e0]; omega
  | ⟨1, _⟩ => show win3_3.index t 1 * 128 + 1 * b.val = b.val; rw [e1]; omega

/-- Window 4's block at every point is its whole array. -/
theorem whole_block3_4 (c : Dev nD) (t : Fin cfg3.N) (a : Fin 128) (b : Fin 128) :
    (iblk3 V c 4 t : Vec Ideal S128x128 .f32) (ix2 a b) = (V c main_arg14 : S128x128.Idx → EReal) (ix2 a b) := by
  obtain ⟨-, -, -, -, -, -, -, -, e0, e1, -⟩ := block_index3 t
  unfold iblk3
  rw [View.read_apply]
  show V c main_arg14 _ = V c main_arg14 _
  congr 1
  funext x
  apply Fin.ext
  match x with
  | ⟨0, _⟩ => show win3_4.index t 0 * 128 + 1 * a.val = a.val; rw [e0]; omega
  | ⟨1, _⟩ => show win3_4.index t 1 * 128 + 1 * b.val = b.val; rw [e1]; omega

/-- Window 5's block at every point is its whole array. -/
theorem whole_block3_5 (c : Dev nD) (t : Fin cfg3.N) (a : Fin 1) (b : Fin 128) :
    (iblk3 V c 5 t : Vec Ideal S1x128 .f32) (ix2 a b) = (V c main_v80 : S1x128.Idx → EReal) (ix2 a b) := by
  obtain ⟨-, -, -, -, -, -, -, -, -, -, e0, e1, -⟩ := block_index3 t
  unfold iblk3
  rw [View.read_apply]
  show V c main_v80 _ = V c main_v80 _
  congr 1
  funext x
  apply Fin.ext
  match x with
  | ⟨0, _⟩ => show win3_5.index t 0 * 1 + 1 * a.val = a.val; rw [e0]; omega
  | ⟨1, _⟩ => show win3_5.index t 1 * 128 + 1 * b.val = b.val; rw [e1]; omega

/-- Window 6's block at every point is its whole array. -/
theorem whole_block3_6 (c : Dev nD) (t : Fin cfg3.N) (a : Fin 128) (b : Fin 32) :
    (iblk3 V c 6 t : Vec Ideal S128x32 .f32) (ix2 a b) = (V c main_arg16 : S128x32.Idx → EReal) (ix2 a b) := by
  obtain ⟨-, -, -, -, -, -, -, -, -, -, -, -, e0, e1, -⟩ := block_index3 t
  unfold iblk3
  rw [View.read_apply]
  show V c main_arg16 _ = V c main_arg16 _
  congr 1
  funext x
  apply Fin.ext
  match x with
  | ⟨0, _⟩ => show win3_6.index t 0 * 128 + 1 * a.val = a.val; rw [e0]; omega
  | ⟨1, _⟩ => show win3_6.index t 1 * 32 + 1 * b.val = b.val; rw [e1]; omega

/-- Window 7's block at every point is its whole array. -/
theorem whole_block3_7 (c : Dev nD) (t : Fin cfg3.N) (a : Fin 1) (b : Fin 32) :
    (iblk3 V c 7 t : Vec Ideal S1x32 .f32) (ix2 a b) = (V c main_v81 : S1x32.Idx → EReal) (ix2 a b) := by
  obtain ⟨-, -, -, -, -, -, -, -, -, -, -, -, -, -, e0, e1, -⟩ := block_index3 t
  unfold iblk3
  rw [View.read_apply]
  show V c main_v81 _ = V c main_v81 _
  congr 1
  funext x
  apply Fin.ext
  match x with
  | ⟨0, _⟩ => show win3_7.index t 0 * 1 + 1 * a.val = a.val; rw [e0]; omega
  | ⟨1, _⟩ => show win3_7.index t 1 * 32 + 1 * b.val = b.val; rw [e1]; omega

/-- Window 8's block at every point is its whole array. -/
theorem whole_block3_8 (c : Dev nD) (t : Fin cfg3.N) (a : Fin 32) (b : Fin 1) :
    (iblk3 V c 8 t : Vec Ideal S32x1 .f32) (ix2 a b) = (V c main_arg18 : S32x1.Idx → EReal) (ix2 a b) := by
  obtain ⟨-, -, -, -, -, -, -, -, -, -, -, -, -, -, -, -, e0, e1, -⟩ := block_index3 t
  unfold iblk3
  rw [View.read_apply]
  show V c main_arg18 _ = V c main_arg18 _
  congr 1
  funext x
  apply Fin.ext
  match x with
  | ⟨0, _⟩ => show win3_8.index t 0 * 32 + 1 * a.val = a.val; rw [e0]; omega
  | ⟨1, _⟩ => show win3_8.index t 1 * 1 + 1 * b.val = b.val; rw [e1]; omega

/-- Window 9's block at every point is its whole array. -/
theorem whole_block3_9 (c : Dev nD) (t : Fin cfg3.N) (a : Fin 1) (b : Fin 1) :
    (iblk3 V c 9 t : Vec Ideal S1x1 .f32) (ix2 a b) = (V c main_v82 : S1x1.Idx → EReal) (ix2 a b) := by
  obtain ⟨-, -, -, -, -, -, -, -, -, -, -, -, -, -, -, -, -, -, e0, e1, -⟩ := block_index3 t
  unfold iblk3
  rw [View.read_apply]
  show V c main_v82 _ = V c main_v82 _
  congr 1
  funext x
  apply Fin.ext
  match x with
  | ⟨0, _⟩ => show win3_9.index t 0 * 1 + 1 * a.val = a.val; rw [e0]; omega
  | ⟨1, _⟩ => show win3_9.index t 1 * 1 + 1 * b.val = b.val; rw [e1]; omega

/-- What point `t` writes back is block `t` of the array `headRows` of the arrays as the launch found them. -/
theorem written_block3 (c : Dev nD) (t : Fin cfg3.N) :
    (dat3 V c).flushed 10 t = ((cfg3.win 10).blk t).view.read (Elt Ideal) (headRows (V c main_v76) (V c main_v77) (V c main_v78) (V c main_v79) (V c main_arg14) (V c main_v80) (V c main_arg16) (V c main_v81) (V c main_arg18) (V c main_v82)) := by
  obtain ⟨-, -, -, -, -, -, -, -, -, -, -, -, -, -, -, -, -, -, -, -, e0, e1⟩ := block_index3 t
  show (cfg3.win 10).cut (grid3.coords t) ((dat3 V c).after 10 t) = _
  rw [after3_10]
  unfold out3_10
  rw [View.canon_unit_zero zero_offsets]
  simp only [View.ld_unit_zero (S := S4000x128) zero_offsets, View.ld_unit_zero (S := S1x128) zero_offsets, View.ld_unit_zero (S := S128x128) zero_offsets, View.ld_unit_zero (S := S128x32) zero_offsets, View.ld_unit_zero (S := S1x32) zero_offsets, View.ld_unit_zero (S := S32x1) zero_offsets, View.ld_unit_zero (S := S1x1) zero_offsets]
  funext j
  obtain ⟨p, q, rfl⟩ : ∃ (p : Fin 4000) (q : Fin 1), j = ix2 p q := ⟨j 0, j 1, eq_ix2 j⟩
  have he : ((cfg3.win 10).blk t).view.emb (ix2 p q) = (ix2 (rowAt t.val (lt25_3 t) p) q : S100000x1.Idx) := by
    funext a
    apply Fin.ext
    match a with
    | ⟨0, _⟩ => show win3_10.index t 0 * 4000 + 1 * p.val = 4000 * t.val + p.val; rw [e0]; omega
    | ⟨1, _⟩ => show win3_10.index t 1 * 1 + 1 * q.val = q.val; rw [e1]; omega
  show k3_pay1 (F := Ideal) (k3_pay2 (iblk3 V c 0 t) (iblk3 V c 1 t) (iblk3 V c 2 t) (iblk3 V c 3 t) (iblk3 V c 4 t)) (k3_pay3 (iblk3 V c 5 t)) (iblk3 V c 6 t) (iblk3 V c 7 t) (iblk3 V c 8 t) (iblk3 V c 9 t) (ix2 p q)
    = headRows (V c main_v76) (V c main_v77) (V c main_v78) (V c main_v79) (V c main_arg14) (V c main_v80) (V c main_arg16) (V c main_v81) (V c main_arg18) (V c main_v82) (((cfg3.win 10).blk t).view.emb (ix2 p q))
  rw [he]
  refine (Cert.KernelRows.k3_at _ _ _ _ _ _ _ _ _ _ p q).trans ?_
  unfold headRows
  simp only [rows_block3 V c t, whole_block3_1 V c t, whole_block3_2 V c t, whole_block3_3 V c t, whole_block3_4 V c t, whole_block3_5 V c t, whole_block3_6 V c t, whole_block3_7 V c t, whole_block3_8 V c t, whole_block3_9 V c t] <;> rfl

/-- An index of the result array is in point `t`'s block iff each coordinate is in the block's range on its axis. -/
theorem mem_written_block3 (t : Fin cfg3.N) (i : S100000x1.Idx) :
    i ∈ ((cfg3.win 10).blk t).view.set ↔ ∀ a : Fin 2, win3_10.index t a * S4000x1.size a ≤ (i a).val ∧ (i a).val < win3_10.index t a * S4000x1.size a + S4000x1.size a := by
  show i ∈ ((View.whole main_v83).slice (win3_10.rect t)).set ↔ _
  rw [View.set_slice_whole, Rect.mem_set_unit]
  exact Iff.rfl

/-- Every index of the result array lies in the block of the point `⌊row / 4000⌋`. -/
theorem written_cover3 (i : S100000x1.Idx) :
    ∃ t : Fin cfg3.N, (cfg3.win 10).flush t = true ∧ i ∈ ((cfg3.win 10).blk t).view.set := by
  have h0 : (i 0).val < 100000 := (i 0).isLt
  have h1 : (i 1).val < 1 := (i 1).isLt
  have hN : cfg3.N = 25 := N_3
  refine ⟨⟨(i 0).val / 4000, by omega⟩, flush3_10 _, ?_⟩
  rw [mem_written_block3]
  obtain ⟨-, -, -, -, -, -, -, -, -, -, -, -, -, -, -, -, -, -, -, -, e0, e1⟩ := block_index3 ⟨(i 0).val / 4000, by omega⟩
  intro a
  match a with
  | ⟨0, _⟩ =>
    show win3_10.index _ 0 * 4000 ≤ (i 0).val ∧ (i 0).val < win3_10.index _ 0 * 4000 + 4000
    rw [e0]; show (i 0).val / 4000 * 4000 ≤ (i 0).val ∧ (i 0).val < (i 0).val / 4000 * 4000 + 4000; omega
  | ⟨1, _⟩ =>
    show win3_10.index _ 1 * 1 ≤ (i 1).val ∧ (i 1).val < win3_10.index _ 1 * 1 + 1
    rw [e1]; omega

/-- After the launch the result array is `headRows` of the arrays as the launch found them. -/
theorem head_array (c : Dev nD) :
    (dat3 V c).arrAt 10 cfg3.N = headRows (V c main_v76) (V c main_v77) (V c main_v78) (V c main_v79) (V c main_arg14) (V c main_v80) (V c main_arg16) (V c main_v81) (V c main_arg18) (V c main_v82) :=
  (dat3 V c).arrAt_eq_of_cover 10 _ (fun t _ => written_block3 V c t) written_cover3

end Cert.KernelIdeal.Arrays

end
-- ==== Proof.Layer2Array.lean ====
/-
  The second layer's dense part as one array.

  This launch takes the aggregated rows (100000 rows of 128), adds the layer's bias, normalises each row, takes the
  positive part and multiplies by the next weight matrix (128 × 128), 4000 rows at a time: grid point `t` of 25 reads rows
  `4000 t … 4000 t + 3999` of the aggregated array and the whole of the four small arrays, and writes the same rows of
  the result. A row of the result depends on the same row of the input alone, and every row lies in exactly one of
  the 25 blocks, so after the launch the result array is the per-row function `Cert.Gcn.layerAt` applied to every row of
  the arrays as the launch found them (`layer2_array`).
-/
import proofs.«152832_j58067957842223_1_alg».proof.Proof.Layer0Array

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem lt25_2 (t : Fin cfg2.N) : t.val < 25 := by
  have h := t.isLt
  have e : cfg2.N = 25 := N_2
  omega

/-- The second layer's dense part as a whole array: row `i`, column `q` is `Cert.Gcn.layerAt` of row `i` of the aggregated array -/
def layerRows2 (A : S100000x128.Idx → EReal) (b g be : S1x128.Idx → EReal) (W : S128x128.Idx → EReal) : S100000x128.Idx → EReal :=
  fun i => Cert.Gcn.layerAt Cert.Gcn.w128 (fun j => A (ix2 (i 0) j) + b (ix2 (0 : Fin 1) j)) (fun j => g (ix2 (0 : Fin 1) j)) (fun j => be (ix2 (0 : Fin 1) j)) (fun k q => W (ix2 k q)) (i 1)

/-- Which block of its array each window holds at grid point `t`: the row-blocked arrays' move down with `t`, the
    others' stay (decided over the 25 points). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `4000 t …` of its array. -/
theorem rows_block2 (c : Dev nD) (t : Fin cfg2.N) (p : Fin 4000) (j : Fin 128) :
    (iblk2 V c 0 t : Vec Ideal S4000x128 .f32) (ix2 p j)
      = (V c main_v59 : S100000x128.Idx → EReal) (ix2 (rowAt t.val (lt25_2 t) p) j) := by
  obtain ⟨e0, e1, -⟩ := block_index2 t
  unfold iblk2
  rw [View.read_apply]
  show V c main_v59 _ = V c main_v59 _
  congr 1
  funext a
  apply Fin.ext
  match a with
  | ⟨0, _⟩ => show win2_0.index t 0 * 4000 + 1 * p.val = 4000 * t.val + p.val; rw [e0]; omega
  | ⟨1, _⟩ => show win2_0.index t 1 * 128 + 1 * j.val = j.val; rw [e1]; omega

/-- Window 1's block at every point is its whole array. -/
theorem whole_block2_1 (c : Dev nD) (t : Fin cfg2.N) (a : Fin 1) (b : Fin 128) :
    (iblk2 V c 1 t : Vec Ideal S1x128 .f32) (ix2 a b) = (V c main_v60 : S1x128.Idx → EReal) (ix2 a b) := by
  obtain ⟨-, -, e0, e1, -⟩ := block_index2 t
  unfold iblk2
  rw [View.read_apply]
  show V c main_v60 _ = V c main_v60 _
  congr 1
  funext x
  apply Fin.ext
  match x with
  | ⟨0, _⟩ => show win2_1.index t 0 * 1 + 1 * a.val = a.val; rw [e0]; omega
  | ⟨1, _⟩ => show win2_1.index t 1 * 128 + 1 * b.val = b.val; rw [e1]; omega

/-- Window 2's block at every point is its whole array. -/
theorem whole_block2_2 (c : Dev nD) (t : Fin cfg2.N) (a : Fin 1) (b : Fin 128) :
    (iblk2 V c 2 t : Vec Ideal S1x128 .f32) (ix2 a b) = (V c main_v61 : S1x128.Idx → EReal) (ix2 a b) := by
  obtain ⟨-, -, -, -, e0, e1, -⟩ := block_index2 t
  unfold iblk2
  rw [View.read_apply]
  show V c main_v61 _ = V c main_v61 _
  congr 1
  funext x
  apply Fin.ext
  match x with
  | ⟨0, _⟩ => show win2_2.index t 0 * 1 + 1 * a.val = a.val; rw [e0]; omega
  | ⟨1, _⟩ => show win2_2.index t 1 * 128 + 1 * b.val = b.val; rw [e1]; omega

/-- Window 3's block at every point is its whole array. -/
theorem whole_block2_3 (c : Dev nD) (t : Fin cfg2.N) (a : Fin 1) (b : Fin 128) :
    (iblk2 V c 3 t : Vec Ideal S1x128 .f32) (ix2 a b) = (V c main_v62 : S1x128.Idx → EReal) (ix2 a b) := by
  obtain ⟨-, -, -, -, -, -, e0, e1, -⟩ := block_index2 t
  unfold iblk2
  rw [View.read_apply]
  show V c main_v62 _ = V c main_v62 _
  congr 1
  funext x
  apply Fin.ext
  match x with
  | ⟨0, _⟩ => show win2_3.index t 0 * 1 + 1 * a.val = a.val; rw [e0]; omega
  | ⟨1, _⟩ => show win2_3.index t 1 * 128 + 1 * b.val = b.val; rw [e1]; omega

/-- Window 4's block at every point is its whole array. -/
theorem whole_block2_4 (c : Dev nD) (t : Fin cfg2.N) (a : Fin 128) (b : Fin 128) :
    (iblk2 V c 4 t : Vec Ideal S128x128 .f32) (ix2 a b) = (V c main_arg10 : S128x128.Idx → EReal) (ix2 a b) := by
  obtain ⟨-, -, -, -, -, -, -, -, e0, e1, -⟩ := block_index2 t
  unfold iblk2
  rw [View.read_apply]
  show V c main_arg10 _ = V c main_arg10 _
  congr 1
  funext x
  apply Fin.ext
  match x with
  | ⟨0, _⟩ => show win2_4.index t 0 * 128 + 1 * a.val = a.val; rw [e0]; omega
  | ⟨1, _⟩ => show win2_4.index t 1 * 128 + 1 * b.val = b.val; rw [e1]; omega

/-- What point `t` writes back is block `t` of the array `layerRows2` of the arrays as the launch found them. -/
theorem written_block2 (c : Dev nD) (t : Fin cfg2.N) :
    (dat2 V c).flushed 5 t = ((cfg2.win 5).blk t).view.read (Elt Ideal) (layerRows2 (V c main_v59) (V c main_v60) (V c main_v61) (V c main_v62) (V c main_arg10)) := by
  obtain ⟨-, -, -, -, -, -, -, -, -, -, e0, e1⟩ := block_index2 t
  show (cfg2.win 5).cut (grid2.coords t) ((dat2 V c).after 5 t) = _
  rw [after2_5]
  unfold out2_5
  rw [View.canon_unit_zero zero_offsets]
  simp only [View.ld_unit_zero (S := S4000x128) zero_offsets, View.ld_unit_zero (S := S1x128) zero_offsets, View.ld_unit_zero (S := S128x128) zero_offsets]
  funext j
  obtain ⟨p, q, rfl⟩ : ∃ (p : Fin 4000) (q : Fin 128), j = ix2 p q := ⟨j 0, j 1, eq_ix2 j⟩
  have he : ((cfg2.win 5).blk t).view.emb (ix2 p q) = (ix2 (rowAt t.val (lt25_2 t) p) q : S100000x128.Idx) := by
    funext a
    apply Fin.ext
    match a with
    | ⟨0, _⟩ => show win2_5.index t 0 * 4000 + 1 * p.val = 4000 * t.val + p.val; rw [e0]; omega
    | ⟨1, _⟩ => show win2_5.index t 1 * 128 + 1 * q.val = q.val; rw [e1]; omega
  show k2_pay1 (F := Ideal) (iblk2 V c 0 t) (iblk2 V c 1 t) (iblk2 V c 2 t) (iblk2 V c 3 t) (iblk2 V c 4 t) (ix2 p q)
    = layerRows2 (V c main_v59) (V c main_v60) (V c main_v61) (V c main_v62) (V c main_arg10) (((cfg2.win 5).blk t).view.emb (ix2 p q))
  rw [he]
  refine (Cert.KernelRows.k2_at _ _ _ _ _ p q).trans ?_
  unfold layerRows2
  simp only [rows_block2 V c t, whole_block2_1 V c t, whole_block2_2 V c t, whole_block2_3 V c t, whole_block2_4 V c t] <;> rfl

/-- An index of the result array is in point `t`'s block iff each coordinate is in the block's range on its axis. -/
theorem mem_written_block2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v63).slice (win2_5.rect t)).set ↔ _
  rw [View.set_slice_whole, Rect.mem_set_unit]
  exact Iff.rfl

/-- Every index of the result array lies in the block of the point `⌊row / 4000⌋`. -/
theorem written_cover2 (i : S100000x128.Idx) :
    ∃ t : Fin cfg2.N, (cfg2.win 5).flush t = true ∧ i ∈ ((cfg2.win 5).blk t).view.set := by
  have h0 : (i 0).val < 100000 := (i 0).isLt
  have h1 : (i 1).val < 128 := (i 1).isLt
  have hN : cfg2.N = 25 := N_2
  refine ⟨⟨(i 0).val / 4000, by omega⟩, flush2_5 _, ?_⟩
  rw [mem_written_block2]
  obtain ⟨-, -, -, -, -, -, -, -, -, -, e0, e1⟩ := block_index2 ⟨(i 0).val / 4000, by omega⟩
  intro a
  match a with
  | ⟨0, _⟩ =>
    show win2_5.index _ 0 * 4000 ≤ (i 0).val ∧ (i 0).val < win2_5.index _ 0 * 4000 + 4000
    rw [e0]; show (i 0).val / 4000 * 4000 ≤ (i 0).val ∧ (i 0).val < (i 0).val / 4000 * 4000 + 4000; omega
  | ⟨1, _⟩ =>
    show win2_5.index _ 1 * 128 ≤ (i 1).val ∧ (i 1).val < win2_5.index _ 1 * 128 + 128
    rw [e1]; omega

/-- After the launch the result array is `layerRows2` of the arrays as the launch found them. -/
theorem layer2_array (c : Dev nD) :
    (dat2 V c).arrAt 5 cfg2.N = layerRows2 (V c main_v59) (V c main_v60) (V c main_v61) (V c main_v62) (V c main_arg10) :=
  (dat2 V c).arrAt_eq_of_cover 5 _ (fun t _ => written_block2 V c t) written_cover2

end Cert.KernelIdeal.Arrays

end
-- ==== Proof.Layer1Array.lean ====
/-
  The first layer's dense part as one array.

  This launch takes the aggregated rows (100000 rows of 64), adds the layer's bias, normalises each row, takes the
  positive part and multiplies by the next weight matrix (64 × 128), 4000 rows at a time: grid point `t` of 25 reads rows
  `4000 t … 4000 t + 3999` of the aggregated array and the whole of the four small arrays, and writes the same rows of
  the result. A row of the result depends on the same row of the input alone, and every row lies in exactly one of
  the 25 blocks, so after the launch the result array is the per-row function `Cert.Gcn.layerAt` applied to every row of
  the arrays as the launch found them (`layer1_array`).
-/
import proofs.«152832_j58067957842223_1_alg».proof.Proof.Layer0Array

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem lt25_1 (t : Fin cfg1.N) : t.val < 25 := by
  have h := t.isLt
  have e : cfg1.N = 25 := N_1
  omega

/-- The first layer's dense part as a whole array: row `i`, column `q` is `Cert.Gcn.layerAt` of row `i` of the aggregated array -/
def layerRows1 (A : S100000x64.Idx → EReal) (b g be : S1x64.Idx → EReal) (W : S64x128.Idx → EReal) : S100000x128.Idx → EReal :=
  fun i => Cert.Gcn.layerAt Cert.Gcn.w64 (fun j => A (ix2 (i 0) j) + b (ix2 (0 : Fin 1) j)) (fun j => g (ix2 (0 : Fin 1) j)) (fun j => be (ix2 (0 : Fin 1) j)) (fun k q => W (ix2 k q)) (i 1)

/-- Which block of its array each window holds at grid point `t`: the row-blocked arrays' move down with `t`, the
    others' stay (decided over the 25 points). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `4000 t …` of its array. -/
theorem rows_block1 (c : Dev nD) (t : Fin cfg1.N) (p : Fin 4000) (j : Fin 64) :
    (iblk1 V c 0 t : Vec Ideal S4000x64 .f32) (ix2 p j)
      = (V c main_v42 : S100000x64.Idx → EReal) (ix2 (rowAt t.val (lt25_1 t) p) j) := by
  obtain ⟨e0, e1, -⟩ := block_index1 t
  unfold iblk1
  rw [View.read_apply]
  show V c main_v42 _ = V c main_v42 _
  congr 1
  funext a
  apply Fin.ext
  match a with
  | ⟨0, _⟩ => show win1_0.index t 0 * 4000 + 1 * p.val = 4000 * t.val + p.val; rw [e0]; omega
  | ⟨1, _⟩ => show win1_0.index t 1 * 64 + 1 * j.val = j.val; rw [e1]; omega

/-- Window 1's block at every point is its whole array. -/
theorem whole_block1_1 (c : Dev nD) (t : Fin cfg1.N) (a : Fin 1) (b : Fin 64) :
    (iblk1 V c 1 t : Vec Ideal S1x64 .f32) (ix2 a b) = (V c main_v43 : S1x64.Idx → EReal) (ix2 a b) := by
  obtain ⟨-, -, e0, e1, -⟩ := block_index1 t
  unfold iblk1
  rw [View.read_apply]
  show V c main_v43 _ = V c main_v43 _
  congr 1
  funext x
  apply Fin.ext
  match x with
  | ⟨0, _⟩ => show win1_1.index t 0 * 1 + 1 * a.val = a.val; rw [e0]; omega
  | ⟨1, _⟩ => show win1_1.index t 1 * 64 + 1 * b.val = b.val; rw [e1]; omega

/-- Window 2's block at every point is its whole array. -/
theorem whole_block1_2 (c : Dev nD) (t : Fin cfg1.N) (a : Fin 1) (b : Fin 64) :
    (iblk1 V c 2 t : Vec Ideal S1x64 .f32) (ix2 a b) = (V c main_v44 : S1x64.Idx → EReal) (ix2 a b) := by
  obtain ⟨-, -, -, -, e0, e1, -⟩ := block_index1 t
  unfold iblk1
  rw [View.read_apply]
  show V c main_v44 _ = V c main_v44 _
  congr 1
  funext x
  apply Fin.ext
  match x with
  | ⟨0, _⟩ => show win1_2.index t 0 * 1 + 1 * a.val = a.val; rw [e0]; omega
  | ⟨1, _⟩ => show win1_2.index t 1 * 64 + 1 * b.val = b.val; rw [e1]; omega

/-- Window 3's block at every point is its whole array. -/
theorem whole_block1_3 (c : Dev nD) (t : Fin cfg1.N) (a : Fin 1) (b : Fin 64) :
    (iblk1 V c 3 t : Vec Ideal S1x64 .f32) (ix2 a b) = (V c main_v45 : S1x64.Idx → EReal) (ix2 a b) := by
  obtain ⟨-, -, -, -, -, -, e0, e1, -⟩ := block_index1 t
  unfold iblk1
  rw [View.read_apply]
  show V c main_v45 _ = V c main_v45 _
  congr 1
  funext x
  apply Fin.ext
  match x with
  | ⟨0, _⟩ => show win1_3.index t 0 * 1 + 1 * a.val = a.val; rw [e0]; omega
  | ⟨1, _⟩ => show win1_3.index t 1 * 64 + 1 * b.val = b.val; rw [e1]; omega

/-- Window 4's block at every point is its whole array. -/
theorem whole_block1_4 (c : Dev nD) (t : Fin cfg1.N) (a : Fin 64) (b : Fin 128) :
    (iblk1 V c 4 t : Vec Ideal S64x128 .f32) (ix2 a b) = (V c main_arg6 : S64x128.Idx → EReal) (ix2 a b) := by
  obtain ⟨-, -, -, -, -, -, -, -, e0, e1, -⟩ := block_index1 t
  unfold iblk1
  rw [View.read_apply]
  show V c main_arg6 _ = V c main_arg6 _
  congr 1
  funext x
  apply Fin.ext
  match x with
  | ⟨0, _⟩ => show win1_4.index t 0 * 64 + 1 * a.val = a.val; rw [e0]; omega
  | ⟨1, _⟩ => show win1_4.index t 1 * 128 + 1 * b.val = b.val; rw [e1]; omega

/-- What point `t` writes back is block `t` of the array `layerRows1` of the arrays as the launch found them. -/
theorem written_block1 (c : Dev nD) (t : Fin cfg1.N) :
    (dat1 V c).flushed 5 t = ((cfg1.win 5).blk t).view.read (Elt Ideal) (layerRows1 (V c main_v42) (V c main_v43) (V c main_v44) (V c main_v45) (V c main_arg6)) := by
  obtain ⟨-, -, -, -, -, -, -, -, -, -, e0, e1⟩ := block_index1 t
  show (cfg1.win 5).cut (grid1.coords t) ((dat1 V c).after 5 t) = _
  rw [after1_5]
  unfold out1_5
  rw [View.canon_unit_zero zero_offsets]
  simp only [View.ld_unit_zero (S := S4000x64) zero_offsets, View.ld_unit_zero (S := S1x64) zero_offsets, View.ld_unit_zero (S := S64x128) zero_offsets]
  funext j
  obtain ⟨p, q, rfl⟩ : ∃ (p : Fin 4000) (q : Fin 128), j = ix2 p q := ⟨j 0, j 1, eq_ix2 j⟩
  have he : ((cfg1.win 5).blk t).view.emb (ix2 p q) = (ix2 (rowAt t.val (lt25_1 t) p) q : S100000x128.Idx) := by
    funext a
    apply Fin.ext
    match a with
    | ⟨0, _⟩ => show win1_5.index t 0 * 4000 + 1 * p.val = 4000 * t.val + p.val; rw [e0]; omega
    | ⟨1, _⟩ => show win1_5.index t 1 * 128 + 1 * q.val = q.val; rw [e1]; omega
  show k1_pay1 (F := Ideal) (iblk1 V c 0 t) (iblk1 V c 1 t) (iblk1 V c 2 t) (iblk1 V c 3 t) (iblk1 V c 4 t) (ix2 p q)
    = layerRows1 (V c main_v42) (V c main_v43) (V c main_v44) (V c main_v45) (V c main_arg6) (((cfg1.win 5).blk t).view.emb (ix2 p q))
  rw [he]
  refine (Cert.KernelRows.k1_at _ _ _ _ _ p q).trans ?_
  unfold layerRows1
  simp only [rows_block1 V c t, whole_block1_1 V c t, whole_block1_2 V c t, whole_block1_3 V c t, whole_block1_4 V c t] <;> rfl

/-- An index of the result array is in point `t`'s block iff each coordinate is in the block's range on its axis. -/
theorem mem_written_block1 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v46).slice (win1_5.rect t)).set ↔ _
  rw [View.set_slice_whole, Rect.mem_set_unit]
  exact Iff.rfl

/-- Every index of the result array lies in the block of the point `⌊row / 4000⌋`. -/
theorem written_cover1 (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 25 := N_1
  refine ⟨⟨(i 0).val / 4000, by omega⟩, flush1_5 _, ?_⟩
  rw [mem_written_block1]
  obtain ⟨-, -, -, -, -, -, -, -, -, -, e0, e1⟩ := block_index1 ⟨(i 0).val / 4000, by omega⟩
  intro a
  match a with
  | ⟨0, _⟩ =>
    show win1_5.index _ 0 * 4000 ≤ (i 0).val ∧ (i 0).val < win1_5.index _ 0 * 4000 + 4000
    rw [e0]; show (i 0).val / 4000 * 4000 ≤ (i 0).val ∧ (i 0).val < (i 0).val / 4000 * 4000 + 4000; omega
  | ⟨1, _⟩ =>
    show win1_5.index _ 1 * 128 ≤ (i 1).val ∧ (i 1).val < win1_5.index _ 1 * 128 + 128
    rw [e1]; omega

/-- After the launch the result array is `layerRows1` of the arrays as the launch found them. -/
theorem layer1_array (c : Dev nD) :
    (dat1 V c).arrAt 5 cfg1.N = layerRows1 (V c main_v42) (V c main_v43) (V c main_v44) (V c main_v45) (V c main_arg6) :=
  (dat1 V c).arrAt_eq_of_cover 5 _ (fun t _ => written_block1 V c t) written_cover1

end Cert.KernelIdeal.Arrays

end
-- ==== Proof.RefRows.lean ====
/-
  The reference program, one node's row at a time.

  Between two aggregations over the graph the reference program computes, for every node, a function of that node's
  aggregated row alone. This module reads the reference's arrays at one entry and identifies what it finds with the
  row functions of the specification: the first product with the input weights as a sum over the three input columns
  (`t0_at`), each graph layer's dense part as `Cert.Gcn.layerAt` of the node's aggregated row plus the bias
  (`t1_at`, `t2_at`), and the read-out as `Cert.Gcn.head` (`out_at`). The aggregated arrays themselves stay opaque.

  Every step is the same: an operation's value at an index is read from its operands at an index; a broadcast of a
  row vector reads the vector at the column, a broadcast of a per-row scalar reads the scalar at the row, a sum over
  the row's axis is a sum over the column coordinate, and a product contracted over the shared axis is a sum over that
  axis's coordinate. On the extended reals every float operation is the exact one, so after the indices are
  identified both sides are the same expression.
-/
import proofs.«152832_j58067957842223_1_alg».proof.Proof.ReferenceStages
import proofs.«152832_j58067957842223_1_alg».proof.Proof.RowSpec
import proofs.«152832_j58067957842223_1_alg».proof.Proof.LibDotSum

noncomputable section

namespace Cert.RefRows

open Cert.ReferenceIdeal Cert.ReferenceIdeal.Gen Cert.ReferenceIdeal.Read Idealize.ShloMosaic Idealize.ShloMosaic.ValueIdx

variable (x0 : (⟨S100000x3, .f32⟩ : BufTy).Contents (Elt Ideal)) (x1 : (⟨S2x1600000, .i32⟩ : BufTy).Contents (Elt Ideal))
  (x2 : (⟨S3x64, .f32⟩ : BufTy).Contents (Elt Ideal)) (x3 x4 x5 : (⟨S64, .f32⟩ : BufTy).Contents (Elt Ideal))
  (x6 : (⟨S64x128, .f32⟩ : BufTy).Contents (Elt Ideal)) (x7 x8 x9 : (⟨S128, .f32⟩ : BufTy).Contents (Elt Ideal))
  (x10 : (⟨S128x128, .f32⟩ : BufTy).Contents (Elt Ideal)) (x11 x12 x13 : (⟨S128, .f32⟩ : BufTy).Contents (Elt Ideal))
  (x14 : (⟨S128x128, .f32⟩ : BufTy).Contents (Elt Ideal)) (x15 : (⟨S128, .f32⟩ : BufTy).Contents (Elt Ideal))
  (x16 : (⟨S128x32, .f32⟩ : BufTy).Contents (Elt Ideal)) (x17 : (⟨S32, .f32⟩ : BufTy).Contents (Elt Ideal))
  (x18 : (⟨S32x1, .f32⟩ : BufTy).Contents (Elt Ideal)) (x19 : (⟨S1, .f32⟩ : BufTy).Contents (Elt Ideal))
  (i : Fin 100000)

/-! ## The first product: a sum over the three input columns -/

/-- The input rows times the input weights, at node `i` and column `q`. -/
theorem t0_at (q : Fin 64) :
    val_main_v29 (F := Ideal) x0 x2 (ix2 i q) = ∑ k : Fin 3, x0 (ix2 i k) * x2 (ix2 k q) := by
  rw [val_main_v29_apply]
  refine Finset.sum_congr rfl fun k _ => ?_
  have el : lidx_main_v29 (ix2 i q) k = ix2 i k := funext fun a => by match a with | ⟨0, _⟩ => rfl | ⟨1, _⟩ => rfl
  have er : ridx_main_v29 (ix2 i q) k = ix2 k q := funext fun a => by match a with | ⟨0, _⟩ => rfl | ⟨1, _⟩ => rfl
  rw [el, er]

/-! ## The first layer: normalisation of a row of width 64, positive part, product with the weights -/

/-- Node `i`'s aggregated row plus the bias: the row the normalisation acts on. -/
abbrev row1 : Fin 64 → EReal := fun j => val_main_v42 (F := Ideal) x0 x1 x2 (ix2 i j) + x3 (ix1 j)

theorem v45_at (j : Fin 64) : val_main_v45 (F := Ideal) x0 x1 x2 x3 (ix2 i j) = row1 x0 x1 x2 x3 i j := by
  rw [val_main_v45_apply, val_main_v44_apply, val_main_v43_apply]
  have e : idx_main_v43 (idx_main_v44 (ix2 i j)) = ix1 j := funext fun a => by match a with | ⟨0, _⟩ => rfl
  rw [e]; rfl

/-- The row's sum. -/
theorem v46_at : val_main_v46 (F := Ideal) x0 x1 x2 x3 (ix1 i) = ∑ j, row1 x0 x1 x2 x3 i j := by
  rw [val_main_v46_apply]
  have z : val_main_cst_8 (F := Ideal) (Shape.Idx.first h_S_) = 0 := Ideal.ofBits_zero_f32
  rw [z, zero_add]
  refine Finset.sum_congr rfl fun k _ => ?_
  have e : idx_main_v46 (ix1 i) k = ix2 i k := funext fun a => by match a with | ⟨0, _⟩ => rfl | ⟨1, _⟩ => rfl
  rw [e]; exact v45_at x0 x1 x2 x3 i k

/-- The row's mean. -/
theorem v49_at (u : Fin 1) : val_main_v49 (F := Ideal) x0 x1 x2 x3 (ix2 i u) = Cert.Gcn.mean Cert.Gcn.w64 (row1 x0 x1 x2 x3 i) := by
  rw [val_main_v49_apply, val_main_v47_apply, val_main_v48_apply, val_main_cst_9_apply]
  have e : idx_main_v47 (ix2 i u) = ix1 i := funext fun a => by match a with | ⟨0, _⟩ => rfl
  rw [e, v46_at]; rfl

theorem v50_at (j : Fin 64) : val_main_v50 (F := Ideal) x0 x1 x2 x3 (ix2 i j) = Cert.Gcn.mean Cert.Gcn.w64 (row1 x0 x1 x2 x3 i) := by
  rw [val_main_v50_apply]
  have e : idx_main_v50 (ix2 i j) = ix2 i (⟨0, Nat.one_pos⟩ : Fin 1) := funext fun a => by match a with | ⟨0, _⟩ => rfl | ⟨1, _⟩ => rfl
  rw [e, v49_at]

theorem v51_at (j : Fin 64) : val_main_v51 (F := Ideal) x0 x1 x2 x3 (ix2 i j) = row1 x0 x1 x2 x3 i j - Cert.Gcn.mean Cert.Gcn.w64 (row1 x0 x1 x2 x3 i) := by
  rw [val_main_v51_apply, v45_at, v50_at]; rfl

theorem v52_at (j : Fin 64) :
    val_main_v52 (F := Ideal) x0 x1 x2 x3 (ix2 i j) = (row1 x0 x1 x2 x3 i j - Cert.Gcn.mean Cert.Gcn.w64 (row1 x0 x1 x2 x3 i)) * (row1 x0 x1 x2 x3 i j - Cert.Gcn.mean Cert.Gcn.w64 (row1 x0 x1 x2 x3 i)) := by
  rw [val_main_v52_apply, v51_at]; rfl

/-- The sum of the squared deviations. -/
theorem v53_at :
    val_main_v53 (F := Ideal) x0 x1 x2 x3 (ix1 i) = ∑ j, (row1 x0 x1 x2 x3 i j - Cert.Gcn.mean Cert.Gcn.w64 (row1 x0 x1 x2 x3 i)) * (row1 x0 x1 x2 x3 i j - Cert.Gcn.mean Cert.Gcn.w64 (row1 x0 x1 x2 x3 i)) := by
  rw [val_main_v53_apply]
  have z : val_main_cst_10 (F := Ideal) (Shape.Idx.first h_S_) = 0 := Ideal.ofBits_zero_f32
  rw [z, zero_add]
  refine Finset.sum_congr rfl fun k _ => ?_
  have e : idx_main_v53 (ix1 i) k = ix2 i k := funext fun a => by match a with | ⟨0, _⟩ => rfl | ⟨1, _⟩ => rfl
  rw [e]; exact v52_at x0 x1 x2 x3 i k

/-- The row's variance. -/
theorem v56_at (u : Fin 1) : val_main_v56 (F := Ideal) x0 x1 x2 x3 (ix2 i u) = Cert.Gcn.var Cert.Gcn.w64 (row1 x0 x1 x2 x3 i) := by
  rw [val_main_v56_apply, val_main_v54_apply, val_main_v55_apply, val_main_cst_11_apply]
  have e : idx_main_v54 (ix2 i u) = ix1 i := funext fun a => by match a with | ⟨0, _⟩ => rfl
  rw [e, v53_at]; rfl

theorem v57_at (j : Fin 64) : val_main_v57 (F := Ideal) x0 x1 x2 x3 (ix2 i j) = Cert.Gcn.mean Cert.Gcn.w64 (row1 x0 x1 x2 x3 i) := by
  rw [val_main_v57_apply]
  have e : idx_main_v57 (ix2 i j) = ix2 i (⟨0, Nat.one_pos⟩ : Fin 1) := funext fun a => by match a with | ⟨0, _⟩ => rfl | ⟨1, _⟩ => rfl
  rw [e, v49_at]

theorem v58_at (j : Fin 64) : val_main_v58 (F := Ideal) x0 x1 x2 x3 (ix2 i j) = row1 x0 x1 x2 x3 i j - Cert.Gcn.mean Cert.Gcn.w64 (row1 x0 x1 x2 x3 i) := by
  rw [val_main_v58_apply, v45_at, v57_at]; rfl

/-- The reciprocal square root of the variance plus the small constant. -/
theorem v61_at (u : Fin 1) : val_main_v61 (F := Ideal) x0 x1 x2 x3 (ix2 i u) = Ideal.rsqrt (Cert.Gcn.var Cert.Gcn.w64 (row1 x0 x1 x2 x3 i) + Cert.Gcn.epsW) := by
  rw [val_main_v61_apply, val_main_v60_apply, v56_at, val_main_v59_apply, val_main_cst_12_apply]; rfl

theorem v62_at (j : Fin 64) : val_main_v62 (F := Ideal) x0 x1 x2 x3 (ix2 i j) = Ideal.rsqrt (Cert.Gcn.var Cert.Gcn.w64 (row1 x0 x1 x2 x3 i) + Cert.Gcn.epsW) := by
  rw [val_main_v62_apply]
  have e : idx_main_v62 (ix2 i j) = ix2 i (⟨0, Nat.one_pos⟩ : Fin 1) := funext fun a => by match a with | ⟨0, _⟩ => rfl | ⟨1, _⟩ => rfl
  rw [e, v61_at]

theorem v63_at (j : Fin 64) : val_main_v63 (F := Ideal) x0 x1 x2 x3 (ix2 i j) = (row1 x0 x1 x2 x3 i j - Cert.Gcn.mean Cert.Gcn.w64 (row1 x0 x1 x2 x3 i)) * Ideal.rsqrt (Cert.Gcn.var Cert.Gcn.w64 (row1 x0 x1 x2 x3 i) + Cert.Gcn.epsW) := by
  rw [val_main_v63_apply, v58_at, v62_at]; rfl

/-- The gain, repeated over the rows, reads its column. -/
theorem v65_at (j : Fin 64) : val_main_v65 (F := Ideal) x4 (ix2 i j) = x4 (ix1 j) := by
  rw [val_main_v65_apply, val_main_v64_apply]
  have e : idx_main_v64 (idx_main_v65 (ix2 i j)) = ix1 j := funext fun a => by match a with | ⟨0, _⟩ => rfl
  rw [e]

theorem v66_at (j : Fin 64) :
    val_main_v66 (F := Ideal) x0 x1 x2 x3 x4 (ix2 i j) = (row1 x0 x1 x2 x3 i j - Cert.Gcn.mean Cert.Gcn.w64 (row1 x0 x1 x2 x3 i)) * Ideal.rsqrt (Cert.Gcn.var Cert.Gcn.w64 (row1 x0 x1 x2 x3 i) + Cert.Gcn.epsW) * x4 (ix1 j) := by
  rw [val_main_v66_apply, v63_at, v65_at]; rfl

/-- The offset, repeated over the rows, reads its column. -/
theorem v68_at (j : Fin 64) : val_main_v68 (F := Ideal) x5 (ix2 i j) = x5 (ix1 j) := by
  rw [val_main_v68_apply, val_main_v67_apply]
  have e : idx_main_v67 (idx_main_v68 (ix2 i j)) = ix1 j := funext fun a => by match a with | ⟨0, _⟩ => rfl
  rw [e]

theorem v69_at (j : Fin 64) :
    val_main_v69 (F := Ideal) x0 x1 x2 x3 x4 x5 (ix2 i j) = (row1 x0 x1 x2 x3 i j - Cert.Gcn.mean Cert.Gcn.w64 (row1 x0 x1 x2 x3 i)) * Ideal.rsqrt (Cert.Gcn.var Cert.Gcn.w64 (row1 x0 x1 x2 x3 i) + Cert.Gcn.epsW) * x4 (ix1 j) + x5 (ix1 j) := by
  rw [val_main_v69_apply, v66_at, v68_at]; rfl

/-- The normalised row's positive part. -/
theorem v70_at (j : Fin 64) :
    val_main_v70 (F := Ideal) x0 x1 x2 x3 x4 x5 (ix2 i j) =
      Cert.Gcn.lnRelu Cert.Gcn.w64 (row1 x0 x1 x2 x3 i) (fun j => x4 (ix1 j)) (fun j => x5 (ix1 j)) j := by
  rw [val_main_v70_apply, v69_at, val_main_call0_v0_apply, val_main_call0_cst_apply]; rfl

/-- The layer's dense part at node `i` and column `q`: the normalised row times column `q` of the weights. -/
theorem t1_at (q : Fin 128) :
    val_main_v71 (F := Ideal) x0 x1 x2 x3 x4 x5 x6 (ix2 i q) =
      Cert.Gcn.layerAt Cert.Gcn.w64 (fun j => val_main_v42 (F := Ideal) x0 x1 x2 (ix2 i j) + x3 (ix1 j)) (fun j => x4 (ix1 j))
        (fun j => x5 (ix1 j)) (fun k q => x6 (ix2 k q)) q := by
  rw [val_main_v71_apply]
  unfold Cert.Gcn.layerAt
  refine Finset.sum_congr rfl fun k _ => ?_
  have el : lidx_main_v71 (ix2 i q) k = ix2 i k := funext fun a => by match a with | ⟨0, _⟩ => rfl | ⟨1, _⟩ => rfl
  have er : ridx_main_v71 (ix2 i q) k = ix2 k q := funext fun a => by match a with | ⟨0, _⟩ => rfl | ⟨1, _⟩ => rfl
  rw [el, er, v70_at]

/-! ## The second layer: the same on a row of width 128 -/

/-- Node `i`'s aggregated row plus the bias: the row the normalisation acts on. -/
abbrev row2 : Fin 128 → EReal := fun j => val_main_v84 (F := Ideal) x0 x1 x2 x3 x4 x5 x6 (ix2 i j) + x7 (ix1 j)

theorem v87_at (j : Fin 128) : val_main_v87 (F := Ideal) x0 x1 x2 x3 x4 x5 x6 x7 (ix2 i j) = row2 x0 x1 x2 x3 x4 x5 x6 x7 i j := by
  rw [val_main_v87_apply, val_main_v86_apply, val_main_v85_apply]
  have e : idx_main_v85 (idx_main_v86 (ix2 i j)) = ix1 j := funext fun a => by match a with | ⟨0, _⟩ => rfl
  rw [e]; rfl

/-- The row's sum. -/
theorem v88_at : val_main_v88 (F := Ideal) x0 x1 x2 x3 x4 x5 x6 x7 (ix1 i) = ∑ j, row2 x0 x1 x2 x3 x4 x5 x6 x7 i j := by
  rw [val_main_v88_apply]
  have z : val_main_cst_16 (F := Ideal) (Shape.Idx.first h_S_) = 0 := Ideal.ofBits_zero_f32
  rw [z, zero_add]
  refine Finset.sum_congr rfl fun k _ => ?_
  have e : idx_main_v88 (ix1 i) k = ix2 i k := funext fun a => by match a with | ⟨0, _⟩ => rfl | ⟨1, _⟩ => rfl
  rw [e]; exact v87_at x0 x1 x2 x3 x4 x5 x6 x7 i k

/-- The row's mean. -/
theorem v91_at (u : Fin 1) : val_main_v91 (F := Ideal) x0 x1 x2 x3 x4 x5 x6 x7 (ix2 i u) = Cert.Gcn.mean Cert.Gcn.w128 (row2 x0 x1 x2 x3 x4 x5 x6 x7 i) := by
  rw [val_main_v91_apply, val_main_v89_apply, val_main_v90_apply, val_main_cst_17_apply]
  have e : idx_main_v89 (ix2 i u) = ix1 i := funext fun a => by match a with | ⟨0, _⟩ => rfl
  rw [e, v88_at]; rfl

theorem v92_at (j : Fin 128) : val_main_v92 (F := Ideal) x0 x1 x2 x3 x4 x5 x6 x7 (ix2 i j) = Cert.Gcn.mean Cert.Gcn.w128 (row2 x0 x1 x2 x3 x4 x5 x6 x7 i) := by
  rw [val_main_v92_apply]
  have e : idx_main_v92 (ix2 i j) = ix2 i (⟨0, Nat.one_pos⟩ : Fin 1) := funext fun a => by match a with | ⟨0, _⟩ => rfl | ⟨1, _⟩ => rfl
  rw [e, v91_at]

theorem v93_at (j : Fin 128) : val_main_v93 (F := Ideal) x0 x1 x2 x3 x4 x5 x6 x7 (ix2 i j) = row2 x0 x1 x2 x3 x4 x5 x6 x7 i j - Cert.Gcn.mean Cert.Gcn.w128 (row2 x0 x1 x2 x3 x4 x5 x6 x7 i) := by
  rw [val_main_v93_apply, v87_at, v92_at]; rfl

theorem v94_at (j : Fin 128) :
    val_main_v94 (F := Ideal) x0 x1 x2 x3 x4 x5 x6 x7 (ix2 i j) = (row2 x0 x1 x2 x3 x4 x5 x6 x7 i j - Cert.Gcn.mean Cert.Gcn.w128 (row2 x0 x1 x2 x3 x4 x5 x6 x7 i)) * (row2 x0 x1 x2 x3 x4 x5 x6 x7 i j - Cert.Gcn.mean Cert.Gcn.w128 (row2 x0 x1 x2 x3 x4 x5 x6 x7 i)) := by
  rw [val_main_v94_apply, v93_at]; rfl

/-- The sum of the squared deviations. -/
theorem v95_at :
    val_main_v95 (F := Ideal) x0 x1 x2 x3 x4 x5 x6 x7 (ix1 i) = ∑ j, (row2 x0 x1 x2 x3 x4 x5 x6 x7 i j - Cert.Gcn.mean Cert.Gcn.w128 (row2 x0 x1 x2 x3 x4 x5 x6 x7 i)) * (row2 x0 x1 x2 x3 x4 x5 x6 x7 i j - Cert.Gcn.mean Cert.Gcn.w128 (row2 x0 x1 x2 x3 x4 x5 x6 x7 i)) := by
  rw [val_main_v95_apply]
  have z : val_main_cst_18 (F := Ideal) (Shape.Idx.first h_S_) = 0 := Ideal.ofBits_zero_f32
  rw [z, zero_add]
  refine Finset.sum_congr rfl fun k _ => ?_
  have e : idx_main_v95 (ix1 i) k = ix2 i k := funext fun a => by match a with | ⟨0, _⟩ => rfl | ⟨1, _⟩ => rfl
  rw [e]; exact v94_at x0 x1 x2 x3 x4 x5 x6 x7 i k

/-- The row's variance. -/
theorem v98_at (u : Fin 1) : val_main_v98 (F := Ideal) x0 x1 x2 x3 x4 x5 x6 x7 (ix2 i u) = Cert.Gcn.var Cert.Gcn.w128 (row2 x0 x1 x2 x3 x4 x5 x6 x7 i) := by
  rw [val_main_v98_apply, val_main_v96_apply, val_main_v97_apply, val_main_cst_19_apply]
  have e : idx_main_v96 (ix2 i u) = ix1 i := funext fun a => by match a with | ⟨0, _⟩ => rfl
  rw [e, v95_at]; rfl

theorem v99_at (j : Fin 128) : val_main_v99 (F := Ideal) x0 x1 x2 x3 x4 x5 x6 x7 (ix2 i j) = Cert.Gcn.mean Cert.Gcn.w128 (row2 x0 x1 x2 x3 x4 x5 x6 x7 i) := by
  rw [val_main_v99_apply]
  have e : idx_main_v99 (ix2 i j) = ix2 i (⟨0, Nat.one_pos⟩ : Fin 1) := funext fun a => by match a with | ⟨0, _⟩ => rfl | ⟨1, _⟩ => rfl
  rw [e, v91_at]

theorem v100_at (j : Fin 128) : val_main_v100 (F := Ideal) x0 x1 x2 x3 x4 x5 x6 x7 (ix2 i j) = row2 x0 x1 x2 x3 x4 x5 x6 x7 i j - Cert.Gcn.mean Cert.Gcn.w128 (row2 x0 x1 x2 x3 x4 x5 x6 x7 i) := by
  rw [val_main_v100_apply, v87_at, v99_at]; rfl

/-- The reciprocal square root of the variance plus the small constant. -/
theorem v103_at (u : Fin 1) : val_main_v103 (F := Ideal) x0 x1 x2 x3 x4 x5 x6 x7 (ix2 i u) = Ideal.rsqrt (Cert.Gcn.var Cert.Gcn.w128 (row2 x0 x1 x2 x3 x4 x5 x6 x7 i) + Cert.Gcn.epsW) := by
  rw [val_main_v103_apply, val_main_v102_apply, v98_at, val_main_v101_apply, val_main_cst_20_apply]; rfl

theorem v104_at (j : Fin 128) : val_main_v104 (F := Ideal) x0 x1 x2 x3 x4 x5 x6 x7 (ix2 i j) = Ideal.rsqrt (Cert.Gcn.var Cert.Gcn.w128 (row2 x0 x1 x2 x3 x4 x5 x6 x7 i) + Cert.Gcn.epsW) := by
  rw [val_main_v104_apply]
  have e : idx_main_v104 (ix2 i j) = ix2 i (⟨0, Nat.one_pos⟩ : Fin 1) := funext fun a => by match a with | ⟨0, _⟩ => rfl | ⟨1, _⟩ => rfl
  rw [e, v103_at]

theorem v105_at (j : Fin 128) : val_main_v105 (F := Ideal) x0 x1 x2 x3 x4 x5 x6 x7 (ix2 i j) = (row2 x0 x1 x2 x3 x4 x5 x6 x7 i j - Cert.Gcn.mean Cert.Gcn.w128 (row2 x0 x1 x2 x3 x4 x5 x6 x7 i)) * Ideal.rsqrt (Cert.Gcn.var Cert.Gcn.w128 (row2 x0 x1 x2 x3 x4 x5 x6 x7 i) + Cert.Gcn.epsW) := by
  rw [val_main_v105_apply, v100_at, v104_at]; rfl

/-- The gain, repeated over the rows, reads its column. -/
theorem v107_at (j : Fin 128) : val_main_v107 (F := Ideal) x8 (ix2 i j) = x8 (ix1 j) := by
  rw [val_main_v107_apply, val_main_v106_apply]
  have e : idx_main_v106 (idx_main_v107 (ix2 i j)) = ix1 j := funext fun a => by match a with | ⟨0, _⟩ => rfl
  rw [e]

theorem v108_at (j : Fin 128) :
    val_main_v108 (F := Ideal) x0 x1 x2 x3 x4 x5 x6 x7 x8 (ix2 i j) = (row2 x0 x1 x2 x3 x4 x5 x6 x7 i j - Cert.Gcn.mean Cert.Gcn.w128 (row2 x0 x1 x2 x3 x4 x5 x6 x7 i)) * Ideal.rsqrt (Cert.Gcn.var Cert.Gcn.w128 (row2 x0 x1 x2 x3 x4 x5 x6 x7 i) + Cert.Gcn.epsW) * x8 (ix1 j) := by
  rw [val_main_v108_apply, v105_at, v107_at]; rfl

/-- The offset, repeated over the rows, reads its column. -/
theorem v110_at (j : Fin 128) : val_main_v110 (F := Ideal) x9 (ix2 i j) = x9 (ix1 j) := by
  rw [val_main_v110_apply, val_main_v109_apply]
  have e : idx_main_v109 (idx_main_v110 (ix2 i j)) = ix1 j := funext fun a => by match a with | ⟨0, _⟩ => rfl
  rw [e]

theorem v111_at (j : Fin 128) :
    val_main_v111 (F := Ideal) x0 x1 x2 x3 x4 x5 x6 x7 x8 x9 (ix2 i j) = (row2 x0 x1 x2 x3 x4 x5 x6 x7 i j - Cert.Gcn.mean Cert.Gcn.w128 (row2 x0 x1 x2 x3 x4 x5 x6 x7 i)) * Ideal.rsqrt (Cert.Gcn.var Cert.Gcn.w128 (row2 x0 x1 x2 x3 x4 x5 x6 x7 i) + Cert.Gcn.epsW) * x8 (ix1 j) + x9 (ix1 j) := by
  rw [val_main_v111_apply, v108_at, v110_at]; rfl

/-- The normalised row's positive part. -/
theorem v112_at (j : Fin 128) :
    val_main_v112 (F := Ideal) x0 x1 x2 x3 x4 x5 x6 x7 x8 x9 (ix2 i j) =
      Cert.Gcn.lnRelu Cert.Gcn.w128 (row2 x0 x1 x2 x3 x4 x5 x6 x7 i) (fun j => x8 (ix1 j)) (fun j => x9 (ix1 j)) j := by
  rw [val_main_v112_apply, v111_at, val_main_call1_v0_apply, val_main_call1_cst_apply]; rfl

/-- The layer's dense part at node `i` and column `q`: the normalised row times column `q` of the weights. -/
theorem t2_at (q : Fin 128) :
    val_main_v113 (F := Ideal) x0 x1 x2 x3 x4 x5 x6 x7 x8 x9 x10 (ix2 i q) =
      Cert.Gcn.layerAt Cert.Gcn.w128 (fun j => val_main_v84 (F := Ideal) x0 x1 x2 x3 x4 x5 x6 (ix2 i j) + x7 (ix1 j)) (fun j => x8 (ix1 j))
        (fun j => x9 (ix1 j)) (fun k q => x10 (ix2 k q)) q := by
  rw [val_main_v113_apply]
  unfold Cert.Gcn.layerAt
  refine Finset.sum_congr rfl fun k _ => ?_
  have el : lidx_main_v113 (ix2 i q) k = ix2 i k := funext fun a => by match a with | ⟨0, _⟩ => rfl | ⟨1, _⟩ => rfl
  have er : ridx_main_v113 (ix2 i q) k = ix2 k q := funext fun a => by match a with | ⟨0, _⟩ => rfl | ⟨1, _⟩ => rfl
  rw [el, er, v112_at]

/-! ## The last normalisation, on a row of width 128 -/

/-- Node `i`'s aggregated row plus the bias: the row the normalisation acts on. -/
abbrev row3 : Fin 128 → EReal := fun j => val_main_v126 (F := Ideal) x0 x1 x2 x3 x4 x5 x6 x7 x8 x9 x10 (ix2 i j) + x11 (ix1 j)

theorem v129_at (j : Fin 128) : val_main_v129 (F := Ideal) x0 x1 x2 x3 x4 x5 x6 x7 x8 x9 x10 x11 (ix2 i j) = row3 x0 x1 x2 x3 x4 x5 x6 x7 x8 x9 x10 x11 i j := by
  rw [val_main_v129_apply, val_main_v128_apply, val_main_v127_apply]
  have e : idx_main_v127 (idx_main_v128 (ix2 i j)) = ix1 j := funext fun a => by match a with | ⟨0, _⟩ => rfl
  rw [e]; rfl

/-- The row's sum. -/
theorem v130_at : val_main_v130 (F := Ideal) x0 x1 x2 x3 x4 x5 x6 x7 x8 x9 x10 x11 (ix1 i) = ∑ j, row3 x0 x1 x2 x3 x4 x5 x6 x7 x8 x9 x10 x11 i j := by
  rw [val_main_v130_apply]
  have z : val_main_cst_24 (F := Ideal) (Shape.Idx.first h_S_) = 0 := Ideal.ofBits_zero_f32
  rw [z, zero_add]
  refine Finset.sum_congr rfl fun k _ => ?_
  have e : idx_main_v130 (ix1 i) k = ix2 i k := funext fun a => by match a with | ⟨0, _⟩ => rfl | ⟨1, _⟩ => rfl
  rw [e]; exact v129_at x0 x1 x2 x3 x4 x5 x6 x7 x8 x9 x10 x11 i k

/-- The row's mean. -/
theorem v133_at (u : Fin 1) : val_main_v133 (F := Ideal) x0 x1 x2 x3 x4 x5 x6 x7 x8 x9 x10 x11 (ix2 i u) = Cert.Gcn.mean Cert.Gcn.w128 (row3 x0 x1 x2 x3 x4 x5 x6 x7 x8 x9 x10 x11 i) := by
  rw [val_main_v133_apply, val_main_v131_apply, val_main_v132_apply, val_main_cst_25_apply]
  have e : idx_main_v131 (ix2 i u) = ix1 i := funext fun a => by match a with | ⟨0, _⟩ => rfl
  rw [e, v130_at]; rfl

theorem v134_at (j : Fin 128) : val_main_v134 (F := Ideal) x0 x1 x2 x3 x4 x5 x6 x7 x8 x9 x10 x11 (ix2 i j) = Cert.Gcn.mean Cert.Gcn.w128 (row3 x0 x1 x2 x3 x4 x5 x6 x7 x8 x9 x10 x11 i) := by
  rw [val_main_v134_apply]
  have e : idx_main_v134 (ix2 i j) = ix2 i (⟨0, Nat.one_pos⟩ : Fin 1) := funext fun a => by match a with | ⟨0, _⟩ => rfl | ⟨1, _⟩ => rfl
  rw [e, v133_at]

theorem v135_at (j : Fin 128) : val_main_v135 (F := Ideal) x0 x1 x2 x3 x4 x5 x6 x7 x8 x9 x10 x11 (ix2 i j) = row3 x0 x1 x2 x3 x4 x5 x6 x7 x8 x9 x10 x11 i j - Cert.Gcn.mean Cert.Gcn.w128 (row3 x0 x1 x2 x3 x4 x5 x6 x7 x8 x9 x10 x11 i) := by
  rw [val_main_v135_apply, v129_at, v134_at]; rfl

theorem v136_at (j : Fin 128) :
    val_main_v136 (F := Ideal) x0 x1 x2 x3 x4 x5 x6 x7 x8 x9 x10 x11 (ix2 i j) = (row3 x0 x1 x2 x3 x4 x5 x6 x7 x8 x9 x10 x11 i j - Cert.Gcn.mean Cert.Gcn.w128 (row3 x0 x1 x2 x3 x4 x5 x6 x7 x8 x9 x10 x11 i)) * (row3 x0 x1 x2 x3 x4 x5 x6 x7 x8 x9 x10 x11 i j - Cert.Gcn.mean Cert.Gcn.w128 (row3 x0 x1 x2 x3 x4 x5 x6 x7 x8 x9 x10 x11 i)) := by
  rw [val_main_v136_apply, v135_at]; rfl

/-- The sum of the squared deviations. -/
theorem v137_at :
    val_main_v137 (F := Ideal) x0 x1 x2 x3 x4 x5 x6 x7 x8 x9 x10 x11 (ix1 i) = ∑ j, (row3 x0 x1 x2 x3 x4 x5 x6 x7 x8 x9 x10 x11 i j - Cert.Gcn.mean Cert.Gcn.w128 (row3 x0 x1 x2 x3 x4 x5 x6 x7 x8 x9 x10 x11 i)) * (row3 x0 x1 x2 x3 x4 x5 x6 x7 x8 x9 x10 x11 i j - Cert.Gcn.mean Cert.Gcn.w128 (row3 x0 x1 x2 x3 x4 x5 x6 x7 x8 x9 x10 x11 i)) := by
  rw [val_main_v137_apply]
  have z : val_main_cst_26 (F := Ideal) (Shape.Idx.first h_S_) = 0 := Ideal.ofBits_zero_f32
  rw [z, zero_add]
  refine Finset.sum_congr rfl fun k _ => ?_
  have e : idx_main_v137 (ix1 i) k = ix2 i k := funext fun a => by match a with | ⟨0, _⟩ => rfl | ⟨1, _⟩ => rfl
  rw [e]; exact v136_at x0 x1 x2 x3 x4 x5 x6 x7 x8 x9 x10 x11 i k

/-- The row's variance. -/
theorem v140_at (u : Fin 1) : val_main_v140 (F := Ideal) x0 x1 x2 x3 x4 x5 x6 x7 x8 x9 x10 x11 (ix2 i u) = Cert.Gcn.var Cert.Gcn.w128 (row3 x0 x1 x2 x3 x4 x5 x6 x7 x8 x9 x10 x11 i) := by
  rw [val_main_v140_apply, val_main_v138_apply, val_main_v139_apply, val_main_cst_27_apply]
  have e : idx_main_v138 (ix2 i u) = ix1 i := funext fun a => by match a with | ⟨0, _⟩ => rfl
  rw [e, v137_at]; rfl

theorem v141_at (j : Fin 128) : val_main_v141 (F := Ideal) x0 x1 x2 x3 x4 x5 x6 x7 x8 x9 x10 x11 (ix2 i j) = Cert.Gcn.mean Cert.Gcn.w128 (row3 x0 x1 x2 x3 x4 x5 x6 x7 x8 x9 x10 x11 i) := by
  rw [val_main_v141_apply]
  have e : idx_main_v141 (ix2 i j) = ix2 i (⟨0, Nat.one_pos⟩ : Fin 1) := funext fun a => by match a with | ⟨0, _⟩ => rfl | ⟨1, _⟩ => rfl
  rw [e, v133_at]

theorem v142_at (j : Fin 128) : val_main_v142 (F := Ideal) x0 x1 x2 x3 x4 x5 x6 x7 x8 x9 x10 x11 (ix2 i j) = row3 x0 x1 x2 x3 x4 x5 x6 x7 x8 x9 x10 x11 i j - Cert.Gcn.mean Cert.Gcn.w128 (row3 x0 x1 x2 x3 x4 x5 x6 x7 x8 x9 x10 x11 i) := by
  rw [val_main_v142_apply, v129_at, v141_at]; rfl

/-- The reciprocal square root of the variance plus the small constant. -/
theorem v145_at (u : Fin 1) : val_main_v145 (F := Ideal) x0 x1 x2 x3 x4 x5 x6 x7 x8 x9 x10 x11 (ix2 i u) = Ideal.rsqrt (Cert.Gcn.var Cert.Gcn.w128 (row3 x0 x1 x2 x3 x4 x5 x6 x7 x8 x9 x10 x11 i) + Cert.Gcn.epsW) := by
  rw [val_main_v145_apply, val_main_v144_apply, v140_at, val_main_v143_apply, val_main_cst_28_apply]; rfl

theorem v146_at (j : Fin 128) : val_main_v146 (F := Ideal) x0 x1 x2 x3 x4 x5 x6 x7 x8 x9 x10 x11 (ix2 i j) = Ideal.rsqrt (Cert.Gcn.var Cert.Gcn.w128 (row3 x0 x1 x2 x3 x4 x5 x6 x7 x8 x9 x10 x11 i) + Cert.Gcn.epsW) := by
  rw [val_main_v146_apply]
  have e : idx_main_v146 (ix2 i j) = ix2 i (⟨0, Nat.one_pos⟩ : Fin 1) := funext fun a => by match a with | ⟨0, _⟩ => rfl | ⟨1, _⟩ => rfl
  rw [e, v145_at]

theorem v147_at (j : Fin 128) : val_main_v147 (F := Ideal) x0 x1 x2 x3 x4 x5 x6 x7 x8 x9 x10 x11 (ix2 i j) = (row3 x0 x1 x2 x3 x4 x5 x6 x7 x8 x9 x10 x11 i j - Cert.Gcn.mean Cert.Gcn.w128 (row3 x0 x1 x2 x3 x4 x5 x6 x7 x8 x9 x10 x11 i)) * Ideal.rsqrt (Cert.Gcn.var Cert.Gcn.w128 (row3 x0 x1 x2 x3 x4 x5 x6 x7 x8 x9 x10 x11 i) + Cert.Gcn.epsW) := by
  rw [val_main_v147_apply, v142_at, v146_at]; rfl

/-- The gain, repeated over the rows, reads its column. -/
theorem v149_at (j : Fin 128) : val_main_v149 (F := Ideal) x12 (ix2 i j) = x12 (ix1 j) := by
  rw [val_main_v149_apply, val_main_v148_apply]
  have e : idx_main_v148 (idx_main_v149 (ix2 i j)) = ix1 j := funext fun a => by match a with | ⟨0, _⟩ => rfl
  rw [e]

theorem v150_at (j : Fin 128) :
    val_main_v150 (F := Ideal) x0 x1 x2 x3 x4 x5 x6 x7 x8 x9 x10 x11 x12 (ix2 i j) = (row3 x0 x1 x2 x3 x4 x5 x6 x7 x8 x9 x10 x11 i j - Cert.Gcn.mean Cert.Gcn.w128 (row3 x0 x1 x2 x3 x4 x5 x6 x7 x8 x9 x10 x11 i)) * Ideal.rsqrt (Cert.Gcn.var Cert.Gcn.w128 (row3 x0 x1 x2 x3 x4 x5 x6 x7 x8 x9 x10 x11 i) + Cert.Gcn.epsW) * x12 (ix1 j) := by
  rw [val_main_v150_apply, v147_at, v149_at]; rfl

/-- The offset, repeated over the rows, reads its column. -/
theorem v152_at (j : Fin 128) : val_main_v152 (F := Ideal) x13 (ix2 i j) = x13 (ix1 j) := by
  rw [val_main_v152_apply, val_main_v151_apply]
  have e : idx_main_v151 (idx_main_v152 (ix2 i j)) = ix1 j := funext fun a => by match a with | ⟨0, _⟩ => rfl
  rw [e]

theorem v153_at (j : Fin 128) :
    val_main_v153 (F := Ideal) x0 x1 x2 x3 x4 x5 x6 x7 x8 x9 x10 x11 x12 x13 (ix2 i j) = (row3 x0 x1 x2 x3 x4 x5 x6 x7 x8 x9 x10 x11 i j - Cert.Gcn.mean Cert.Gcn.w128 (row3 x0 x1 x2 x3 x4 x5 x6 x7 x8 x9 x10 x11 i)) * Ideal.rsqrt (Cert.Gcn.var Cert.Gcn.w128 (row3 x0 x1 x2 x3 x4 x5 x6 x7 x8 x9 x10 x11 i) + Cert.Gcn.epsW) * x12 (ix1 j) + x13 (ix1 j) := by
  rw [val_main_v153_apply, v150_at, v152_at]; rfl

/-- The normalised row's positive part. -/
theorem v154_at (j : Fin 128) :
    val_main_v154 (F := Ideal) x0 x1 x2 x3 x4 x5 x6 x7 x8 x9 x10 x11 x12 x13 (ix2 i j) =
      Cert.Gcn.lnRelu Cert.Gcn.w128 (row3 x0 x1 x2 x3 x4 x5 x6 x7 x8 x9 x10 x11 i) (fun j => x12 (ix1 j)) (fun j => x13 (ix1 j)) j := by
  rw [val_main_v154_apply, v153_at, val_main_call2_v0_apply, val_main_call2_cst_apply]; rfl

/-! ## The read-out: three affine maps of the normalised last row -/

/-- The normalised last row's positive part: the read-out's input. -/
abbrev hid0 : Fin 128 → EReal :=
  Cert.Gcn.lnRelu Cert.Gcn.w128 (row3 x0 x1 x2 x3 x4 x5 x6 x7 x8 x9 x10 x11 i) (fun j => x12 (ix1 j)) (fun j => x13 (ix1 j))

theorem v155_at (q : Fin 128) :
    val_main_v155 (F := Ideal) x0 x1 x2 x3 x4 x5 x6 x7 x8 x9 x10 x11 x12 x13 x14 (ix2 i q) = ∑ k, hid0 x0 x1 x2 x3 x4 x5 x6 x7 x8 x9 x10 x11 x12 x13 i k * x14 (ix2 k q) := by
  rw [val_main_v155_apply]
  refine Finset.sum_congr rfl fun k _ => ?_
  have el : lidx_main_v155 (ix2 i q) k = ix2 i k := funext fun a => by match a with | ⟨0, _⟩ => rfl | ⟨1, _⟩ => rfl
  have er : ridx_main_v155 (ix2 i q) k = ix2 k q := funext fun a => by match a with | ⟨0, _⟩ => rfl | ⟨1, _⟩ => rfl
  rw [el, er, v154_at]

theorem v157_at (q : Fin 128) : val_main_v157 (F := Ideal) x15 (ix2 i q) = x15 (ix1 q) := by
  rw [val_main_v157_apply, val_main_v156_apply]
  have e : idx_main_v156 (idx_main_v157 (ix2 i q)) = ix1 q := funext fun a => by match a with | ⟨0, _⟩ => rfl
  rw [e]

/-- The first hidden row of the read-out. -/
abbrev hid1 : Fin 128 → EReal :=
  Cert.Gcn.denseRelu (hid0 x0 x1 x2 x3 x4 x5 x6 x7 x8 x9 x10 x11 x12 x13 i) (fun k q => x14 (ix2 k q)) (fun j => x15 (ix1 j))

theorem v159_at (q : Fin 128) : val_main_v159 (F := Ideal) x0 x1 x2 x3 x4 x5 x6 x7 x8 x9 x10 x11 x12 x13 x14 x15 (ix2 i q) = hid1 x0 x1 x2 x3 x4 x5 x6 x7 x8 x9 x10 x11 x12 x13 x14 x15 i q := by
  rw [val_main_v159_apply, val_main_v158_apply, v155_at, v157_at, val_main_call3_v0_apply, val_main_call3_cst_apply]; rfl

theorem v160_at (q : Fin 32) :
    val_main_v160 (F := Ideal) x0 x1 x2 x3 x4 x5 x6 x7 x8 x9 x10 x11 x12 x13 x14 x15 x16 (ix2 i q) = ∑ k, hid1 x0 x1 x2 x3 x4 x5 x6 x7 x8 x9 x10 x11 x12 x13 x14 x15 i k * x16 (ix2 k q) := by
  rw [val_main_v160_apply]
  refine Finset.sum_congr rfl fun k _ => ?_
  have el : lidx_main_v160 (ix2 i q) k = ix2 i k := funext fun a => by match a with | ⟨0, _⟩ => rfl | ⟨1, _⟩ => rfl
  have er : ridx_main_v160 (ix2 i q) k = ix2 k q := funext fun a => by match a with | ⟨0, _⟩ => rfl | ⟨1, _⟩ => rfl
  rw [el, er, v159_at]

theorem v162_at (q : Fin 32) : val_main_v162 (F := Ideal) x17 (ix2 i q) = x17 (ix1 q) := by
  rw [val_main_v162_apply, val_main_v161_apply]
  have e : idx_main_v161 (idx_main_v162 (ix2 i q)) = ix1 q := funext fun a => by match a with | ⟨0, _⟩ => rfl
  rw [e]

/-- The second hidden row of the read-out. -/
abbrev hid2 : Fin 32 → EReal :=
  Cert.Gcn.denseRelu (hid1 x0 x1 x2 x3 x4 x5 x6 x7 x8 x9 x10 x11 x12 x13 x14 x15 i) (fun k q => x16 (ix2 k q)) (fun j => x17 (ix1 j))

theorem v164_at (q : Fin 32) : val_main_v164 (F := Ideal) x0 x1 x2 x3 x4 x5 x6 x7 x8 x9 x10 x11 x12 x13 x14 x15 x16 x17 (ix2 i q) = hid2 x0 x1 x2 x3 x4 x5 x6 x7 x8 x9 x10 x11 x12 x13 x14 x15 x16 x17 i q := by
  rw [val_main_v164_apply, val_main_v163_apply, v160_at, v162_at, val_main_call4_v0_apply, val_main_call4_cst_apply]; rfl

theorem v165_at (q : Fin 1) :
    val_main_v165 (F := Ideal) x0 x1 x2 x3 x4 x5 x6 x7 x8 x9 x10 x11 x12 x13 x14 x15 x16 x17 x18 (ix2 i q) = ∑ k, hid2 x0 x1 x2 x3 x4 x5 x6 x7 x8 x9 x10 x11 x12 x13 x14 x15 x16 x17 i k * x18 (ix2 k q) := by
  rw [val_main_v165_apply]
  refine Finset.sum_congr rfl fun k _ => ?_
  have el : lidx_main_v165 (ix2 i q) k = ix2 i k := funext fun a => by match a with | ⟨0, _⟩ => rfl | ⟨1, _⟩ => rfl
  have er : ridx_main_v165 (ix2 i q) k = ix2 k q := funext fun a => by match a with | ⟨0, _⟩ => rfl | ⟨1, _⟩ => rfl
  rw [el, er, v164_at]

/-- The last bias has one entry; repeated over the rows it reads that entry. -/
theorem v167_at (q : Fin 1) : val_main_v167 (F := Ideal) x19 (ix2 i q) = x19 (ix1 q) := by
  rw [val_main_v167_apply, val_main_v166_apply]
  have e : idx_main_v166 (idx_main_v167 (ix2 i q)) = ix1 q :=
    funext fun a => by match a with | ⟨0, _⟩ => exact Fin.ext (show 0 = q.val by omega)
  rw [e]

/-- The result at node `i`: the read-out of the node's last aggregated row plus the bias. -/
theorem out_at (q : Fin 1) :
    val_main_v168 (F := Ideal) x0 x1 x2 x3 x4 x5 x6 x7 x8 x9 x10 x11 x12 x13 x14 x15 x16 x17 x18 x19 (ix2 i q) =
      Cert.Gcn.head (fun j => val_main_v126 (F := Ideal) x0 x1 x2 x3 x4 x5 x6 x7 x8 x9 x10 (ix2 i j) + x11 (ix1 j)) (fun j => x12 (ix1 j))
        (fun j => x13 (ix1 j)) (fun k q => x14 (ix2 k q)) (fun j => x15 (ix1 j)) (fun k q => x16 (ix2 k q))
        (fun j => x17 (ix1 j)) (fun k q => x18 (ix2 k q)) (fun j => x19 (ix1 j)) q := by
  rw [val_main_v168_apply, v165_at, v167_at]; rfl

end Cert.RefRows

end
-- ==== Proof.Boundary0.lean ====
/-
  The buffers' contents up to the first launch's exit, in the reference's words.

  Before the first launch the host computes, from the edge list alone, the source and destination index vectors with
  the self-loops appended and the symmetric normalisation weight of every edge; none of these operations touches an
  argument. They are the same operations, in the same order, as the reference program's first lines, so each of these
  three arrays IS the reference's stage of the same name applied to the edge list (`val1_v3`, `val1_v6`, `val1_v28`).
  The first launch then leaves the first product, which is the reference's first `dot_general` (`val2_v29`): both
  are `(i, q) ↦ ∑ k, x (i, k) · W (k, q)`.
-/
import proofs.«152832_j58067957842223_1_alg».proof.Proof.Layer0Array
import proofs.«152832_j58067957842223_1_alg».proof.Proof.RefRows
import proofs.«152832_j58067957842223_1_alg».proof.Proof.ReferenceStages
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- A host stretch leaves a buffer alone when none of its operations writes it: the stretch's operations are listed,
    each one's written buffer compared with the buffer in question. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem kept1_arg0 (c : Dev nD) : W1 m ρ c (Proc.devRef .tc main_arg0) = m ((c : Thread nD τ).loc main_arg0) :=
  (by host_keeps hostOps0 : W1 m ρ c (Proc.devRef .tc main_arg0) = W0 m ρ c (Proc.devRef .tc main_arg0)).trans
    (rfl)

theorem kept1_arg2 (c : Dev nD) : W1 m ρ c (Proc.devRef .tc main_arg2) = m ((c : Thread nD τ).loc main_arg2) :=
  (by host_keeps hostOps0 : W1 m ρ c (Proc.devRef .tc main_arg2) = W0 m ρ c (Proc.devRef .tc main_arg2)).trans
    (rfl)

/-- The source index vector (edge sources, then every node once) is the reference's. -/
theorem val1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The destination index vector is the reference's. -/
theorem val1_v6 (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

/-- The edges' normalisation weights are the reference's. -/
theorem val1_v28 (c : Dev nD) : W1 m ρ c (Proc.devRef .tc main_v28) = Cert.ReferenceIdeal.Read.val_main_v28 (F := Ideal) (m ((c : Thread nD τ).loc main_arg1)) := by
  show StableHlo.after hostOps0 (W0 m ρ c) (Proc.devRef .tc main_v28) = _
  after_results_simp
  rfl

/-- After the first launch its result array is the reference's first product. -/
theorem val2_v29 (c : Dev nD) :
    W2 m ρ c (Proc.devRef .tc main_v29) = Cert.ReferenceIdeal.Read.val_main_v29 (F := Ideal) (m ((c : Thread nD τ).loc main_arg0)) (m ((c : Thread nD τ).loc main_arg2)) := by
  refine ((W2_arr m ρ c 2).trans (Arrays.product_array (V1 m ρ) c)).trans ?_
  funext i
  obtain ⟨p, q, rfl⟩ : ∃ (p : Fin 100000) (q : Fin 64), i = ix2 p q := ⟨i 0, i 1, eq_ix2 i⟩
  rw [Cert.RefRows.t0_at]
  unfold Arrays.productRows
  simp only [V1, kept1_arg0 m ρ c, kept1_arg2 m ρ c] <;> rfl

end Cert.KernelIdeal.Whole

end
-- ==== Proof.LibRowOfVec.lean ====
/-
  A vector laid out as a single row.

  A host `reshape` of a vector of `a` entries to the shape `[1, a]` keeps the entries in order: entry `(0, i)` of the row is
  entry `i` of the vector (`row_of_vec_apply`). It is the row twin of the column form `[a] → [a, 1]`.
-/
import Idealize.ShloMosaic.Lib.Pipeline.Value
import Idealize.ShloMosaic.Lib.ValueIdx

noncomputable section

namespace Cert.LibRowOfVec

open Idealize.ShloMosaic Idealize.ShloMosaic.ValueIdx

/-- A vector `[a]` cast to a row `[1, a]`: entry (u, i) is the vector's entry i. -/
theorem row_of_vec_apply {a : Nat} {α : Type} (x : (⟨1, ![a]⟩ : Shape).Idx → α)
    (h : (⟨1, ![a]⟩ : Shape).ShapeCasts ⟨2, ![1, a]⟩) (u : Fin 1) (i : Fin a) :
    shapeCast ⟨2, ![1, a]⟩ x h (ix2 u i) = x (ix1 i) :=
  shapeCast_apply x h _ _ (by
    have hu : u.val = 0 := by omega
    rw [Shape.rowMajor_val_one, Shape.rowMajor_val_two]
    show i.val = u.val * a + i.val
    rw [hu, Nat.zero_mul, Nat.zero_add])

end Cert.LibRowOfVec

end
-- ==== Proof.Boundary1.lean ====
/-
  The buffers' contents from the first launch's exit to the second's, in the reference's words.

  Between the two launches the host aggregates the first product over the graph and lays the first layer's bias, gain
  and offset out as rows. The aggregation is the reference's (`val3_v42`); each row reads the argument it came from
  (`row3_v43` …). The second launch then leaves the reference's second product (`val4_v46`): row by row, both programs
  normalise the aggregated row plus bias, take the positive part and multiply by the same weights.
-/
import proofs.«152832_j58067957842223_1_alg».proof.Proof.Layer1Array
import proofs.«152832_j58067957842223_1_alg».proof.Proof.Boundary0
import proofs.«152832_j58067957842223_1_alg».proof.Proof.LibRowOfVec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## What the stretch before the launch leaves alone -/

theorem val2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans
    (val1_v3 m ρ c)

theorem val2_v6 (c : Dev nD) : W2 m ρ c (Proc.devRef .tc main_v6) = Cert.ReferenceIdeal.Read.val_main_v6 (F := Ideal) (m ((c : Thread nD τ).loc main_arg1)) :=
  (W2_of_ne m ρ c main_v6 (by decide)).trans
    (val1_v6 m ρ c)

theorem val2_v28 (c : Dev nD) : W2 m ρ c (Proc.devRef .tc main_v28) = Cert.ReferenceIdeal.Read.val_main_v28 (F := Ideal) (m ((c : Thread nD τ).loc main_arg1)) :=
  (W2_of_ne m ρ c main_v28 (by decide)).trans
    (val1_v28 m ρ c)

theorem kept2_arg3 (c : Dev nD) : W2 m ρ c (Proc.devRef .tc main_arg3) = m ((c : Thread nD τ).loc main_arg3) :=
  (W2_of_ne m ρ c main_arg3 (by decide)).trans
    ((by host_keeps hostOps0 : W1 m ρ c (Proc.devRef .tc main_arg3) = W0 m ρ c (Proc.devRef .tc main_arg3)).trans
    (rfl))

theorem kept2_arg4 (c : Dev nD) : W2 m ρ c (Proc.devRef .tc main_arg4) = m ((c : Thread nD τ).loc main_arg4) :=
  (W2_of_ne m ρ c main_arg4 (by decide)).trans
    ((by host_keeps hostOps0 : W1 m ρ c (Proc.devRef .tc main_arg4) = W0 m ρ c (Proc.devRef .tc main_arg4)).trans
    (rfl))

theorem kept2_arg5 (c : Dev nD) : W2 m ρ c (Proc.devRef .tc main_arg5) = m ((c : Thread nD τ).loc main_arg5) :=
  (W2_of_ne m ρ c main_arg5 (by decide)).trans
    ((by host_keeps hostOps0 : W1 m ρ c (Proc.devRef .tc main_arg5) = W0 m ρ c (Proc.devRef .tc main_arg5)).trans
    (rfl))

/-! ## What the stretch writes -/

/-- The aggregation over the graph of the previous launch's rows — gather each edge's source row, scale it by the
    edge's weight, add it into the edge's destination row — is the reference's: the same operations in the same order
    on the same arrays. -/
theorem val3_v42 (c : Dev nD) :
    W3 m ρ c (Proc.devRef .tc main_v42) = Cert.ReferenceIdeal.Read.val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v42) = _
  after_results_simp
  rw [val2_v29 m ρ c, val2_v3 m ρ c, val2_v6 m ρ c, val2_v28 m ρ c]
  rfl

/-- The row `[1, 64]` the host lays out from argument 3 reads, at `(0, j)`, the argument's entry `j`. -/
theorem row3_v43 (c : Dev nD) (j : Fin 64) :
    (W3 m ρ c (Proc.devRef .tc main_v43) : S1x64.Idx → EReal) (ix2 (0 : Fin 1) j) = (m ((c : Thread nD τ).loc main_arg3) : S64.Idx → EReal) (ix1 j) := by
  have e : W3 m ρ c (Proc.devRef .tc main_v43) = (fun i => shapeCast S1x64 (W2 m ρ c (Proc.devRef .tc main_arg3)) shapeCasts_S64_S1x64 i : S1x64.Idx → EReal) := by
    show StableHlo.after hostOps1 (W2 m ρ c) (Proc.devRef .tc main_v43) = _
    after_results_simp
    try rfl
  rw [e, kept2_arg3 m ρ c]
  exact Cert.LibRowOfVec.row_of_vec_apply _ _ (0 : Fin 1) j

/-- The row `[1, 64]` the host lays out from argument 4 reads, at `(0, j)`, the argument's entry `j`. -/
theorem row3_v44 (c : Dev nD) (j : Fin 64) :
    (W3 m ρ c (Proc.devRef .tc main_v44) : S1x64.Idx → EReal) (ix2 (0 : Fin 1) j) = (m ((c : Thread nD τ).loc main_arg4) : S64.Idx → EReal) (ix1 j) := by
  have e : W3 m ρ c (Proc.devRef .tc main_v44) = (fun i => shapeCast S1x64 (W2 m ρ c (Proc.devRef .tc main_arg4)) shapeCasts_S64_S1x64 i : S1x64.Idx → EReal) := by
    show StableHlo.after hostOps1 (W2 m ρ c) (Proc.devRef .tc main_v44) = _
    after_results_simp
    try rfl
  rw [e, kept2_arg4 m ρ c]
  exact Cert.LibRowOfVec.row_of_vec_apply _ _ (0 : Fin 1) j

/-- The row `[1, 64]` the host lays out from argument 5 reads, at `(0, j)`, the argument's entry `j`. -/
theorem row3_v45 (c : Dev nD) (j : Fin 64) :
    (W3 m ρ c (Proc.devRef .tc main_v45) : S1x64.Idx → EReal) (ix2 (0 : Fin 1) j) = (m ((c : Thread nD τ).loc main_arg5) : S64.Idx → EReal) (ix1 j) := by
  have e : W3 m ρ c (Proc.devRef .tc main_v45) = (fun i => shapeCast S1x64 (W2 m ρ c (Proc.devRef .tc main_arg5)) shapeCasts_S64_S1x64 i : S1x64.Idx → EReal) := by
    show StableHlo.after hostOps1 (W2 m ρ c) (Proc.devRef .tc main_v45) = _
    after_results_simp
    try rfl
  rw [e, kept2_arg5 m ρ c]
  exact Cert.LibRowOfVec.row_of_vec_apply _ _ (0 : Fin 1) j

theorem kept3_arg6 (c : Dev nD) : W3 m ρ c (Proc.devRef .tc main_arg6) = m ((c : Thread nD τ).loc main_arg6) :=
  (by host_keeps hostOps1 : W3 m ρ c (Proc.devRef .tc main_arg6) = W2 m ρ c (Proc.devRef .tc main_arg6)).trans
    ((W2_of_ne m ρ c main_arg6 (by decide)).trans
    ((by host_keeps hostOps0 : W1 m ρ c (Proc.devRef .tc main_arg6) = W0 m ρ c (Proc.devRef .tc main_arg6)).trans
    (rfl)))

/-! ## What the launch leaves -/

/-- After the launch its result array is the reference's stage of the same place: row by row both are the same
    per-row function of the aggregated row, the bias, the gain, the offset and the weights. -/
theorem val4_v46 (c : Dev nD) :
    W4 m ρ c (Proc.devRef .tc main_v46) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W4_arr m ρ c 5).trans (Arrays.layer1_array (V3 m ρ) c)).trans ?_
  funext i
  obtain ⟨p, q, rfl⟩ : ∃ (p : Fin 100000) (q : Fin 128), i = ix2 p q := ⟨i 0, i 1, eq_ix2 i⟩
  rw [Cert.RefRows.t1_at]
  unfold Arrays.layerRows1
  simp only [V3, val3_v42 m ρ c, row3_v43 m ρ c, row3_v44 m ρ c, row3_v45 m ρ c, kept3_arg6 m ρ c] <;> rfl

end Cert.KernelIdeal.Whole

end
-- ==== Proof.Boundary2.lean ====
/-
  The buffers' contents from the second launch's exit to the third's, in the reference's words.

  The host aggregates the second product over the graph (`val5_v59`, the reference's) and lays the second layer's bias,
  gain and offset out as rows (`row5_v60` …); the third launch leaves the reference's third product (`val6_v63`).
-/
import proofs.«152832_j58067957842223_1_alg».proof.Proof.Layer2Array
import proofs.«152832_j58067957842223_1_alg».proof.Proof.Boundary1
import proofs.«152832_j58067957842223_1_alg».proof.Proof.LibRowOfVec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## What the stretch before the launch leaves alone -/

theorem val4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans
    ((by host_keeps hostOps1 : W3 m ρ c (Proc.devRef .tc main_v3) = W2 m ρ c (Proc.devRef .tc main_v3)).trans
    ((W2_of_ne m ρ c main_v3 (by decide)).trans
    (val1_v3 m ρ c)))

theorem val4_v6 (c : Dev nD) : W4 m ρ c (Proc.devRef .tc main_v6) = Cert.ReferenceIdeal.Read.val_main_v6 (F := Ideal) (m ((c : Thread nD τ).loc main_arg1)) :=
  (W4_of_ne m ρ c main_v6 (by decide)).trans
    ((by host_keeps hostOps1 : W3 m ρ c (Proc.devRef .tc main_v6) = W2 m ρ c (Proc.devRef .tc main_v6)).trans
    ((W2_of_ne m ρ c main_v6 (by decide)).trans
    (val1_v6 m ρ c)))

theorem val4_v28 (c : Dev nD) : W4 m ρ c (Proc.devRef .tc main_v28) = Cert.ReferenceIdeal.Read.val_main_v28 (F := Ideal) (m ((c : Thread nD τ).loc main_arg1)) :=
  (W4_of_ne m ρ c main_v28 (by decide)).trans
    ((by host_keeps hostOps1 : W3 m ρ c (Proc.devRef .tc main_v28) = W2 m ρ c (Proc.devRef .tc main_v28)).trans
    ((W2_of_ne m ρ c main_v28 (by decide)).trans
    (val1_v28 m ρ c)))

theorem kept4_arg7 (c : Dev nD) : W4 m ρ c (Proc.devRef .tc main_arg7) = m ((c : Thread nD τ).loc main_arg7) :=
  (W4_of_ne m ρ c main_arg7 (by decide)).trans
    ((by host_keeps hostOps1 : W3 m ρ c (Proc.devRef .tc main_arg7) = W2 m ρ c (Proc.devRef .tc main_arg7)).trans
    ((W2_of_ne m ρ c main_arg7 (by decide)).trans
    ((by host_keeps hostOps0 : W1 m ρ c (Proc.devRef .tc main_arg7) = W0 m ρ c (Proc.devRef .tc main_arg7)).trans
    (rfl))))

theorem kept4_arg8 (c : Dev nD) : W4 m ρ c (Proc.devRef .tc main_arg8) = m ((c : Thread nD τ).loc main_arg8) :=
  (W4_of_ne m ρ c main_arg8 (by decide)).trans
    ((by host_keeps hostOps1 : W3 m ρ c (Proc.devRef .tc main_arg8) = W2 m ρ c (Proc.devRef .tc main_arg8)).trans
    ((W2_of_ne m ρ c main_arg8 (by decide)).trans
    ((by host_keeps hostOps0 : W1 m ρ c (Proc.devRef .tc main_arg8) = W0 m ρ c (Proc.devRef .tc main_arg8)).trans
    (rfl))))

theorem kept4_arg9 (c : Dev nD) : W4 m ρ c (Proc.devRef .tc main_arg9) = m ((c : Thread nD τ).loc main_arg9) :=
  (W4_of_ne m ρ c main_arg9 (by decide)).trans
    ((by host_keeps hostOps1 : W3 m ρ c (Proc.devRef .tc main_arg9) = W2 m ρ c (Proc.devRef .tc main_arg9)).trans
    ((W2_of_ne m ρ c main_arg9 (by decide)).trans
    ((by host_keeps hostOps0 : W1 m ρ c (Proc.devRef .tc main_arg9) = W0 m ρ c (Proc.devRef .tc main_arg9)).trans
    (rfl))))

/-! ## What the stretch writes -/

/-- The aggregation over the graph of the previous launch's rows — gather each edge's source row, scale it by the
    edge's weight, add it into the edge's destination row — is the reference's: the same operations in the same order
    on the same arrays. -/
theorem val5_v59 (c : Dev nD) :
    W5 m ρ c (Proc.devRef .tc main_v59) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v59) = _
  after_results_simp
  rw [val4_v46 m ρ c, val4_v3 m ρ c, val4_v6 m ρ c, val4_v28 m ρ c]
  rfl

/-- The row `[1, 128]` the host lays out from argument 7 reads, at `(0, j)`, the argument's entry `j`. -/
theorem row5_v60 (c : Dev nD) (j : Fin 128) :
    (W5 m ρ c (Proc.devRef .tc main_v60) : S1x128.Idx → EReal) (ix2 (0 : Fin 1) j) = (m ((c : Thread nD τ).loc main_arg7) : S128.Idx → EReal) (ix1 j) := by
  have e : W5 m ρ c (Proc.devRef .tc main_v60) = (fun i => shapeCast S1x128 (W4 m ρ c (Proc.devRef .tc main_arg7)) shapeCasts_S128_S1x128 i : S1x128.Idx → EReal) := by
    show StableHlo.after hostOps2 (W4 m ρ c) (Proc.devRef .tc main_v60) = _
    after_results_simp
    try rfl
  rw [e, kept4_arg7 m ρ c]
  exact Cert.LibRowOfVec.row_of_vec_apply _ _ (0 : Fin 1) j

/-- The row `[1, 128]` the host lays out from argument 8 reads, at `(0, j)`, the argument's entry `j`. -/
theorem row5_v61 (c : Dev nD) (j : Fin 128) :
    (W5 m ρ c (Proc.devRef .tc main_v61) : S1x128.Idx → EReal) (ix2 (0 : Fin 1) j) = (m ((c : Thread nD τ).loc main_arg8) : S128.Idx → EReal) (ix1 j) := by
  have e : W5 m ρ c (Proc.devRef .tc main_v61) = (fun i => shapeCast S1x128 (W4 m ρ c (Proc.devRef .tc main_arg8)) shapeCasts_S128_S1x128 i : S1x128.Idx → EReal) := by
    show StableHlo.after hostOps2 (W4 m ρ c) (Proc.devRef .tc main_v61) = _
    after_results_simp
    try rfl
  rw [e, kept4_arg8 m ρ c]
  exact Cert.LibRowOfVec.row_of_vec_apply _ _ (0 : Fin 1) j

/-- The row `[1, 128]` the host lays out from argument 9 reads, at `(0, j)`, the argument's entry `j`. -/
theorem row5_v62 (c : Dev nD) (j : Fin 128) :
    (W5 m ρ c (Proc.devRef .tc main_v62) : S1x128.Idx → EReal) (ix2 (0 : Fin 1) j) = (m ((c : Thread nD τ).loc main_arg9) : S128.Idx → EReal) (ix1 j) := by
  have e : W5 m ρ c (Proc.devRef .tc main_v62) = (fun i => shapeCast S1x128 (W4 m ρ c (Proc.devRef .tc main_arg9)) shapeCasts_S128_S1x128 i : S1x128.Idx → EReal) := by
    show StableHlo.after hostOps2 (W4 m ρ c) (Proc.devRef .tc main_v62) = _
    after_results_simp
    try rfl
  rw [e, kept4_arg9 m ρ c]
  exact Cert.LibRowOfVec.row_of_vec_apply _ _ (0 : Fin 1) j

theorem kept5_arg10 (c : Dev nD) : W5 m ρ c (Proc.devRef .tc main_arg10) = m ((c : Thread nD τ).loc main_arg10) :=
  (by host_keeps hostOps2 : W5 m ρ c (Proc.devRef .tc main_arg10) = W4 m ρ c (Proc.devRef .tc main_arg10)).trans
    ((W4_of_ne m ρ c main_arg10 (by decide)).trans
    ((by host_keeps hostOps1 : W3 m ρ c (Proc.devRef .tc main_arg10) = W2 m ρ c (Proc.devRef .tc main_arg10)).trans
    ((W2_of_ne m ρ c main_arg10 (by decide)).trans
    ((by host_keeps hostOps0 : W1 m ρ c (Proc.devRef .tc main_arg10) = W0 m ρ c (Proc.devRef .tc main_arg10)).trans
    (rfl)))))

/-! ## What the launch leaves -/

/-- After the launch its result array is the reference's stage of the same place: row by row both are the same
    per-row function of the aggregated row, the bias, the gain, the offset and the weights. -/
theorem val6_v63 (c : Dev nD) :
    W6 m ρ c (Proc.devRef .tc main_v63) = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 5).trans (Arrays.layer2_array (V5 m ρ) c)).trans ?_
  funext i
  obtain ⟨p, q, rfl⟩ : ∃ (p : Fin 100000) (q : Fin 128), i = ix2 p q := ⟨i 0, i 1, eq_ix2 i⟩
  rw [Cert.RefRows.t2_at]
  unfold Arrays.layerRows2
  simp only [V5, val5_v59 m ρ c, row5_v60 m ρ c, row5_v61 m ρ c, row5_v62 m ρ c, kept5_arg10 m ρ c] <;> rfl

end Cert.KernelIdeal.Whole

end
-- ==== Proof.Boundary3.lean ====
/-
  The buffers' contents from the third launch's exit to the program's end, in the reference's words.

  The host aggregates the third product over the graph (`val7_v76`, the reference's) and lays the third layer's bias, gain
  and offset and the three read-out biases out as rows (`row7_v77` …); the last launch leaves the reference's result
  (`val8_v83`): row by row, both programs normalise the aggregated row plus bias, take the positive part and apply the
  same three affine maps.
-/
import proofs.«152832_j58067957842223_1_alg».proof.Proof.HeadArray
import proofs.«152832_j58067957842223_1_alg».proof.Proof.Boundary2
import proofs.«152832_j58067957842223_1_alg».proof.Proof.LibRowOfVec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## What the stretch before the launch leaves alone -/

theorem val6_v3 (c : Dev nD) : W6 m ρ c (Proc.devRef .tc main_v3) = Cert.ReferenceIdeal.Read.val_main_v3 (F := Ideal) (m ((c : Thread nD τ).loc main_arg1)) :=
  (W6_of_ne m ρ c main_v3 (by decide)).trans
    ((by host_keeps hostOps2 : W5 m ρ c (Proc.devRef .tc main_v3) = W4 m ρ c (Proc.devRef .tc main_v3)).trans
    ((W4_of_ne m ρ c main_v3 (by decide)).trans
    ((by host_keeps hostOps1 : W3 m ρ c (Proc.devRef .tc main_v3) = W2 m ρ c (Proc.devRef .tc main_v3)).trans
    ((W2_of_ne m ρ c main_v3 (by decide)).trans
    (val1_v3 m ρ c)))))

theorem val6_v6 (c : Dev nD) : W6 m ρ c (Proc.devRef .tc main_v6) = Cert.ReferenceIdeal.Read.val_main_v6 (F := Ideal) (m ((c : Thread nD τ).loc main_arg1)) :=
  (W6_of_ne m ρ c main_v6 (by decide)).trans
    ((by host_keeps hostOps2 : W5 m ρ c (Proc.devRef .tc main_v6) = W4 m ρ c (Proc.devRef .tc main_v6)).trans
    ((W4_of_ne m ρ c main_v6 (by decide)).trans
    ((by host_keeps hostOps1 : W3 m ρ c (Proc.devRef .tc main_v6) = W2 m ρ c (Proc.devRef .tc main_v6)).trans
    ((W2_of_ne m ρ c main_v6 (by decide)).trans
    (val1_v6 m ρ c)))))

theorem val6_v28 (c : Dev nD) : W6 m ρ c (Proc.devRef .tc main_v28) = Cert.ReferenceIdeal.Read.val_main_v28 (F := Ideal) (m ((c : Thread nD τ).loc main_arg1)) :=
  (W6_of_ne m ρ c main_v28 (by decide)).trans
    ((by host_keeps hostOps2 : W5 m ρ c (Proc.devRef .tc main_v28) = W4 m ρ c (Proc.devRef .tc main_v28)).trans
    ((W4_of_ne m ρ c main_v28 (by decide)).trans
    ((by host_keeps hostOps1 : W3 m ρ c (Proc.devRef .tc main_v28) = W2 m ρ c (Proc.devRef .tc main_v28)).trans
    ((W2_of_ne m ρ c main_v28 (by decide)).trans
    (val1_v28 m ρ c)))))

theorem kept6_arg11 (c : Dev nD) : W6 m ρ c (Proc.devRef .tc main_arg11) = m ((c : Thread nD τ).loc main_arg11) :=
  (W6_of_ne m ρ c main_arg11 (by decide)).trans
    ((by host_keeps hostOps2 : W5 m ρ c (Proc.devRef .tc main_arg11) = W4 m ρ c (Proc.devRef .tc main_arg11)).trans
    ((W4_of_ne m ρ c main_arg11 (by decide)).trans
    ((by host_keeps hostOps1 : W3 m ρ c (Proc.devRef .tc main_arg11) = W2 m ρ c (Proc.devRef .tc main_arg11)).trans
    ((W2_of_ne m ρ c main_arg11 (by decide)).trans
    ((by host_keeps hostOps0 : W1 m ρ c (Proc.devRef .tc main_arg11) = W0 m ρ c (Proc.devRef .tc main_arg11)).trans
    (rfl))))))

theorem kept6_arg12 (c : Dev nD) : W6 m ρ c (Proc.devRef .tc main_arg12) = m ((c : Thread nD τ).loc main_arg12) :=
  (W6_of_ne m ρ c main_arg12 (by decide)).trans
    ((by host_keeps hostOps2 : W5 m ρ c (Proc.devRef .tc main_arg12) = W4 m ρ c (Proc.devRef .tc main_arg12)).trans
    ((W4_of_ne m ρ c main_arg12 (by decide)).trans
    ((by host_keeps hostOps1 : W3 m ρ c (Proc.devRef .tc main_arg12) = W2 m ρ c (Proc.devRef .tc main_arg12)).trans
    ((W2_of_ne m ρ c main_arg12 (by decide)).trans
    ((by host_keeps hostOps0 : W1 m ρ c (Proc.devRef .tc main_arg12) = W0 m ρ c (Proc.devRef .tc main_arg12)).trans
    (rfl))))))

theorem kept6_arg13 (c : Dev nD) : W6 m ρ c (Proc.devRef .tc main_arg13) = m ((c : Thread nD τ).loc main_arg13) :=
  (W6_of_ne m ρ c main_arg13 (by decide)).trans
    ((by host_keeps hostOps2 : W5 m ρ c (Proc.devRef .tc main_arg13) = W4 m ρ c (Proc.devRef .tc main_arg13)).trans
    ((W4_of_ne m ρ c main_arg13 (by decide)).trans
    ((by host_keeps hostOps1 : W3 m ρ c (Proc.devRef .tc main_arg13) = W2 m ρ c (Proc.devRef .tc main_arg13)).trans
    ((W2_of_ne m ρ c main_arg13 (by decide)).trans
    ((by host_keeps hostOps0 : W1 m ρ c (Proc.devRef .tc main_arg13) = W0 m ρ c (Proc.devRef .tc main_arg13)).trans
    (rfl))))))

theorem kept6_arg15 (c : Dev nD) : W6 m ρ c (Proc.devRef .tc main_arg15) = m ((c : Thread nD τ).loc main_arg15) :=
  (W6_of_ne m ρ c main_arg15 (by decide)).trans
    ((by host_keeps hostOps2 : W5 m ρ c (Proc.devRef .tc main_arg15) = W4 m ρ c (Proc.devRef .tc main_arg15)).trans
    ((W4_of_ne m ρ c main_arg15 (by decide)).trans
    ((by host_keeps hostOps1 : W3 m ρ c (Proc.devRef .tc main_arg15) = W2 m ρ c (Proc.devRef .tc main_arg15)).trans
    ((W2_of_ne m ρ c main_arg15 (by decide)).trans
    ((by host_keeps hostOps0 : W1 m ρ c (Proc.devRef .tc main_arg15) = W0 m ρ c (Proc.devRef .tc main_arg15)).trans
    (rfl))))))

theorem kept6_arg17 (c : Dev nD) : W6 m ρ c (Proc.devRef .tc main_arg17) = m ((c : Thread nD τ).loc main_arg17) :=
  (W6_of_ne m ρ c main_arg17 (by decide)).trans
    ((by host_keeps hostOps2 : W5 m ρ c (Proc.devRef .tc main_arg17) = W4 m ρ c (Proc.devRef .tc main_arg17)).trans
    ((W4_of_ne m ρ c main_arg17 (by decide)).trans
    ((by host_keeps hostOps1 : W3 m ρ c (Proc.devRef .tc main_arg17) = W2 m ρ c (Proc.devRef .tc main_arg17)).trans
    ((W2_of_ne m ρ c main_arg17 (by decide)).trans
    ((by host_keeps hostOps0 : W1 m ρ c (Proc.devRef .tc main_arg17) = W0 m ρ c (Proc.devRef .tc main_arg17)).trans
    (rfl))))))

theorem kept6_arg19 (c : Dev nD) : W6 m ρ c (Proc.devRef .tc main_arg19) = m ((c : Thread nD τ).loc main_arg19) :=
  (W6_of_ne m ρ c main_arg19 (by decide)).trans
    ((by host_keeps hostOps2 : W5 m ρ c (Proc.devRef .tc main_arg19) = W4 m ρ c (Proc.devRef .tc main_arg19)).trans
    ((W4_of_ne m ρ c main_arg19 (by decide)).trans
    ((by host_keeps hostOps1 : W3 m ρ c (Proc.devRef .tc main_arg19) = W2 m ρ c (Proc.devRef .tc main_arg19)).trans
    ((W2_of_ne m ρ c main_arg19 (by decide)).trans
    ((by host_keeps hostOps0 : W1 m ρ c (Proc.devRef .tc main_arg19) = W0 m ρ c (Proc.devRef .tc main_arg19)).trans
    (rfl))))))

/-! ## What the stretch writes -/

/-- The aggregation over the graph of the previous launch's rows — gather each edge's source row, scale it by the
    edge's weight, add it into the edge's destination row — is the reference's: the same operations in the same order
    on the same arrays. -/
theorem val7_v76 (c : Dev nD) :
    W7 m ρ c (Proc.devRef .tc main_v76) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v76) = _
  after_results_simp
  rw [val6_v63 m ρ c, val6_v3 m ρ c, val6_v6 m ρ c, val6_v28 m ρ c]
  rfl

/-- The row `[1, 128]` the host lays out from argument 11 reads, at `(0, j)`, the argument's entry `j`. -/
theorem row7_v77 (c : Dev nD) (j : Fin 128) :
    (W7 m ρ c (Proc.devRef .tc main_v77) : S1x128.Idx → EReal) (ix2 (0 : Fin 1) j) = (m ((c : Thread nD τ).loc main_arg11) : S128.Idx → EReal) (ix1 j) := by
  have e : W7 m ρ c (Proc.devRef .tc main_v77) = (fun i => shapeCast S1x128 (W6 m ρ c (Proc.devRef .tc main_arg11)) shapeCasts_S128_S1x128 i : S1x128.Idx → EReal) := by
    show StableHlo.after hostOps3 (W6 m ρ c) (Proc.devRef .tc main_v77) = _
    after_results_simp
    try rfl
  rw [e, kept6_arg11 m ρ c]
  exact Cert.LibRowOfVec.row_of_vec_apply _ _ (0 : Fin 1) j

/-- The row `[1, 128]` the host lays out from argument 12 reads, at `(0, j)`, the argument's entry `j`. -/
theorem row7_v78 (c : Dev nD) (j : Fin 128) :
    (W7 m ρ c (Proc.devRef .tc main_v78) : S1x128.Idx → EReal) (ix2 (0 : Fin 1) j) = (m ((c : Thread nD τ).loc main_arg12) : S128.Idx → EReal) (ix1 j) := by
  have e : W7 m ρ c (Proc.devRef .tc main_v78) = (fun i => shapeCast S1x128 (W6 m ρ c (Proc.devRef .tc main_arg12)) shapeCasts_S128_S1x128 i : S1x128.Idx → EReal) := by
    show StableHlo.after hostOps3 (W6 m ρ c) (Proc.devRef .tc main_v78) = _
    after_results_simp
    try rfl
  rw [e, kept6_arg12 m ρ c]
  exact Cert.LibRowOfVec.row_of_vec_apply _ _ (0 : Fin 1) j

/-- The row `[1, 128]` the host lays out from argument 13 reads, at `(0, j)`, the argument's entry `j`. -/
theorem row7_v79 (c : Dev nD) (j : Fin 128) :
    (W7 m ρ c (Proc.devRef .tc main_v79) : S1x128.Idx → EReal) (ix2 (0 : Fin 1) j) = (m ((c : Thread nD τ).loc main_arg13) : S128.Idx → EReal) (ix1 j) := by
  have e : W7 m ρ c (Proc.devRef .tc main_v79) = (fun i => shapeCast S1x128 (W6 m ρ c (Proc.devRef .tc main_arg13)) shapeCasts_S128_S1x128 i : S1x128.Idx → EReal) := by
    show StableHlo.after hostOps3 (W6 m ρ c) (Proc.devRef .tc main_v79) = _
    after_results_simp
    try rfl
  rw [e, kept6_arg13 m ρ c]
  exact Cert.LibRowOfVec.row_of_vec_apply _ _ (0 : Fin 1) j

/-- The row `[1, 128]` the host lays out from argument 15 reads, at `(0, j)`, the argument's entry `j`. -/
theorem row7_v80 (c : Dev nD) (j : Fin 128) :
    (W7 m ρ c (Proc.devRef .tc main_v80) : S1x128.Idx → EReal) (ix2 (0 : Fin 1) j) = (m ((c : Thread nD τ).loc main_arg15) : S128.Idx → EReal) (ix1 j) := by
  have e : W7 m ρ c (Proc.devRef .tc main_v80) = (fun i => shapeCast S1x128 (W6 m ρ c (Proc.devRef .tc main_arg15)) shapeCasts_S128_S1x128 i : S1x128.Idx → EReal) := by
    show StableHlo.after hostOps3 (W6 m ρ c) (Proc.devRef .tc main_v80) = _
    after_results_simp
    try rfl
  rw [e, kept6_arg15 m ρ c]
  exact Cert.LibRowOfVec.row_of_vec_apply _ _ (0 : Fin 1) j

/-- The row `[1, 32]` the host lays out from argument 17 reads, at `(0, j)`, the argument's entry `j`. -/
theorem row7_v81 (c : Dev nD) (j : Fin 32) :
    (W7 m ρ c (Proc.devRef .tc main_v81) : S1x32.Idx → EReal) (ix2 (0 : Fin 1) j) = (m ((c : Thread nD τ).loc main_arg17) : S32.Idx → EReal) (ix1 j) := by
  have e : W7 m ρ c (Proc.devRef .tc main_v81) = (fun i => shapeCast S1x32 (W6 m ρ c (Proc.devRef .tc main_arg17)) shapeCasts_S32_S1x32 i : S1x32.Idx → EReal) := by
    show StableHlo.after hostOps3 (W6 m ρ c) (Proc.devRef .tc main_v81) = _
    after_results_simp
    try rfl
  rw [e, kept6_arg17 m ρ c]
  exact Cert.LibRowOfVec.row_of_vec_apply _ _ (0 : Fin 1) j

/-- The row `[1, 1]` the host lays out from argument 19 reads, at `(0, j)`, the argument's entry `j`. -/
theorem row7_v82 (c : Dev nD) (j : Fin 1) :
    (W7 m ρ c (Proc.devRef .tc main_v82) : S1x1.Idx → EReal) (ix2 (0 : Fin 1) j) = (m ((c : Thread nD τ).loc main_arg19) : S1.Idx → EReal) (ix1 j) := by
  have e : W7 m ρ c (Proc.devRef .tc main_v82) = (fun i => shapeCast S1x1 (W6 m ρ c (Proc.devRef .tc main_arg19)) shapeCasts_S1_S1x1 i : S1x1.Idx → EReal) := by
    show StableHlo.after hostOps3 (W6 m ρ c) (Proc.devRef .tc main_v82) = _
    after_results_simp
    try rfl
  rw [e, kept6_arg19 m ρ c]
  exact Cert.LibRowOfVec.row_of_vec_apply _ _ (0 : Fin 1) j

theorem kept7_arg14 (c : Dev nD) : W7 m ρ c (Proc.devRef .tc main_arg14) = m ((c : Thread nD τ).loc main_arg14) :=
  (by host_keeps hostOps3 : W7 m ρ c (Proc.devRef .tc main_arg14) = W6 m ρ c (Proc.devRef .tc main_arg14)).trans
    ((W6_of_ne m ρ c main_arg14 (by decide)).trans
    ((by host_keeps hostOps2 : W5 m ρ c (Proc.devRef .tc main_arg14) = W4 m ρ c (Proc.devRef .tc main_arg14)).trans
    ((W4_of_ne m ρ c main_arg14 (by decide)).trans
    ((by host_keeps hostOps1 : W3 m ρ c (Proc.devRef .tc main_arg14) = W2 m ρ c (Proc.devRef .tc main_arg14)).trans
    ((W2_of_ne m ρ c main_arg14 (by decide)).trans
    ((by host_keeps hostOps0 : W1 m ρ c (Proc.devRef .tc main_arg14) = W0 m ρ c (Proc.devRef .tc main_arg14)).trans
    (rfl)))))))

theorem kept7_arg16 (c : Dev nD) : W7 m ρ c (Proc.devRef .tc main_arg16) = m ((c : Thread nD τ).loc main_arg16) :=
  (by host_keeps hostOps3 : W7 m ρ c (Proc.devRef .tc main_arg16) = W6 m ρ c (Proc.devRef .tc main_arg16)).trans
    ((W6_of_ne m ρ c main_arg16 (by decide)).trans
    ((by host_keeps hostOps2 : W5 m ρ c (Proc.devRef .tc main_arg16) = W4 m ρ c (Proc.devRef .tc main_arg16)).trans
    ((W4_of_ne m ρ c main_arg16 (by decide)).trans
    ((by host_keeps hostOps1 : W3 m ρ c (Proc.devRef .tc main_arg16) = W2 m ρ c (Proc.devRef .tc main_arg16)).trans
    ((W2_of_ne m ρ c main_arg16 (by decide)).trans
    ((by host_keeps hostOps0 : W1 m ρ c (Proc.devRef .tc main_arg16) = W0 m ρ c (Proc.devRef .tc main_arg16)).trans
    (rfl)))))))

theorem kept7_arg18 (c : Dev nD) : W7 m ρ c (Proc.devRef .tc main_arg18) = m ((c : Thread nD τ).loc main_arg18) :=
  (by host_keeps hostOps3 : W7 m ρ c (Proc.devRef .tc main_arg18) = W6 m ρ c (Proc.devRef .tc main_arg18)).trans
    ((W6_of_ne m ρ c main_arg18 (by decide)).trans
    ((by host_keeps hostOps2 : W5 m ρ c (Proc.devRef .tc main_arg18) = W4 m ρ c (Proc.devRef .tc main_arg18)).trans
    ((W4_of_ne m ρ c main_arg18 (by decide)).trans
    ((by host_keeps hostOps1 : W3 m ρ c (Proc.devRef .tc main_arg18) = W2 m ρ c (Proc.devRef .tc main_arg18)).trans
    ((W2_of_ne m ρ c main_arg18 (by decide)).trans
    ((by host_keeps hostOps0 : W1 m ρ c (Proc.devRef .tc main_arg18) = W0 m ρ c (Proc.devRef .tc main_arg18)).trans
    (rfl)))))))

/-! ## What the launch leaves -/

/-- After the launch its result array is the reference's stage of the same place: row by row both are the same
    per-row function of the aggregated row, the bias, the gain, the offset and the weights. -/
theorem val8_v83 (c : Dev nD) :
    W8 m ρ c (Proc.devRef .tc main_v83) = Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine ((W8_arr m ρ c 10).trans (Arrays.head_array (V7 m ρ) c)).trans ?_
  funext i
  obtain ⟨p, q, rfl⟩ : ∃ (p : Fin 100000) (q : Fin 1), i = ix2 p q := ⟨i 0, i 1, eq_ix2 i⟩
  rw [Cert.RefRows.out_at]
  unfold Arrays.headRows
  simp only [V7, val7_v76 m ρ c, row7_v77 m ρ c, row7_v78 m ρ c, row7_v79 m ρ c, row7_v80 m ρ c, row7_v81 m ρ c, row7_v82 m ρ c, kept7_arg14 m ρ c, kept7_arg16 m ρ c, kept7_arg18 m ρ c] <;> rfl

end Cert.KernelIdeal.Whole

end
-- ==== Proof.lean ====
/-
  A three-layer graph network for node regression, as four kernel launches, against its plain description.

  The network takes node features `x` (100000 × 3) and an edge list (2 × 1600000). Once and for all it computes, from
  the edge list alone, every edge's symmetric normalisation weight `rsqrt (max deg 1)` at its two ends, with a
  self-loop added at every node. Then three times: multiply the node rows by a weight matrix, aggregate over the
  graph (gather each edge's source row, scale it by the edge's weight, add it into the edge's destination row), add a
  bias, normalise each row (mean and variance over the row, `ε` the float nearest 1e-5, a gain and an offset), take
  the positive part. A read-out of three affine maps 128 → 128 → 32 → 1 follows.

  The kernel program does the aggregation and the index arithmetic on the host, with the very operations of the
  reference in the very same order, and everything between two aggregations in ONE kernel launch tiled over the
  nodes, 4000 rows per grid point: the first launch is the first product; the second and third add the bias,
  normalise, take the positive part and multiply by the next weights; the last does the same and then the read-out.
  What happens between two aggregations is a function of one node's row alone, so tiling changes nothing; and on the
  extended reals the kernels' roundings to a narrower float format before each product are the identity. Row by
  row, both programs therefore apply the same operations in the same order, and the proof never needs a law of
  arithmetic beyond re-indexing the sums, nor the finiteness of the inputs.

  The pieces: `Proof/RowSpec.lean` states the per-row functions; `Proof/KernelRows.lean` reads each kernel body's
  stored value at an entry as that function of the blocks it loads, `Proof/RefRows.lean` the reference's stages;
  `Proof/Layer0Array.lean` … `Proof/HeadArray.lean` pass from a launch's 25 blocks to its whole result array;
  `Proof/Boundary0.lean` … `Proof/Boundary3.lean` follow the buffers' contents from one launch to the next and identify
  each with the reference's stage; `Proof/KernelRun.lean` is the kernel program's run with its result named. The
  frames of the two kernel programs are the generated ones; the reference's frame is its generated run with the result
  dropped; the idealization rewrote nothing, so there is nothing to preserve.
-/
import proofs.«152832_j58067957842223_1_alg».proof.Defs
import proofs.«152832_j58067957842223_1_alg».proof.Proof.Gen.Kernel
import proofs.«152832_j58067957842223_1_alg».proof.Proof.Gen.Kernel.Skeleton
import proofs.«152832_j58067957842223_1_alg».proof.Proof.Gen.Kernel.Launch
import proofs.«152832_j58067957842223_1_alg».proof.Proof.Gen.Kernel.Points
import proofs.«152832_j58067957842223_1_alg».proof.Proof.Gen.Kernel.Frame
import proofs.«152832_j58067957842223_1_alg».proof.Proof.Gen.KernelIdeal
import proofs.«152832_j58067957842223_1_alg».proof.Proof.Gen.KernelIdeal.Skeleton
import proofs.«152832_j58067957842223_1_alg».proof.Proof.Gen.KernelIdeal.Launch
import proofs.«152832_j58067957842223_1_alg».proof.Proof.Gen.KernelIdeal.Points
import proofs.«152832_j58067957842223_1_alg».proof.Proof.Gen.KernelIdeal.Frame
import proofs.«152832_j58067957842223_1_alg».proof.Proof.Gen.ReferenceIdeal
import proofs.«152832_j58067957842223_1_alg».proof.Proof.Gen.Pre_finite_inputs
import proofs.«152832_j58067957842223_1_alg».proof.Proof.ReferenceRun
import proofs.«152832_j58067957842223_1_alg».proof.Proof.ReferenceRead
import proofs.«152832_j58067957842223_1_alg».proof.Proof.KernelRun
import proofs.«152832_j58067957842223_1_alg».proof.Proof.Boundary3
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel program's result buffer ends at the contents the last
    launch leaves, which is the reference's last stage of the kernel's arguments; the reference's ends at the same
    stage of its own arguments; and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v83),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v168_eq, h0, h1, h2, h3, h4, h5, h6, h7, h8, h9, h10, h11, h12, h13, h14, h15, h16, h17, h18, h19]
  exact (Cert.KernelIdeal.Whole.val8_v83 m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
